-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x64 : Shape := ⟨3, ![2, 512, 64]⟩
abbrev S2x512x512x64 : Shape := ⟨4, ![2, 512, 512, 64]⟩
abbrev S2x512x512 : Shape := ⟨3, ![2, 512, 512]⟩
abbrev S64x192 : Shape := ⟨2, ![64, 192]⟩
abbrev S64 : Shape := ⟨1, ![64]⟩
abbrev S192x64 : Shape := ⟨2, ![192, 64]⟩
abbrev S192 : Shape := ⟨1, ![192]⟩
abbrev S_ : Shape := ⟨0, ![]⟩

class Facts : Prop where
  bcast_S_S2x512x64 : S_.BroadcastsInDim S2x512x64 (![] : Fin 0 → Fin S2x512x64.rank)
  reducesTo_S2x512x64_S_d0_1_2 : S2x512x64.ReducesTo [0, 1, 2] S_
  h_S_ : 0 < S_.numel
  bcast_S_S2x512x512x64 : S_.BroadcastsInDim S2x512x512x64 (![] : Fin 0 → Fin S2x512x512x64.rank)
  reducesTo_S2x512x512x64_S_d0_1_2_3 : S2x512x512x64.ReducesTo [0, 1, 2, 3] S_
  bcast_S_S2x512x512 : S_.BroadcastsInDim S2x512x512 (![] : Fin 0 → Fin S2x512x512.rank)
  reducesTo_S2x512x512_S_d0_1_2 : S2x512x512.ReducesTo [0, 1, 2] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S192 .f32) (main_arg8 : FVec F S192 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  main_v43

def fn_part1 {F : FTy → Type} [FloatOps F] (main_arg4 : FVec F S64 .f32) (main_arg5 : FVec F S192x64 .f32) (main_arg6 : FVec F S192x64 .f32) (main_arg7 : FVec F S192 .f32) (main_arg8 : FVec F S192 .f32) (main_v13 : IVec S_ 1) (main_v16 : IVec S64x192 1) : IVec S_ 1 :=
  let main_c_5 : IVec S_ 1 := constantI S_ 1 1#1
  let main_v17 : IVec S_ 1 := (fun x v => Host.reduce IntOp.andi x v reducesTo_S64x192_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg5
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_v33

def fn {F : FTy → Type} [FloatOps F] (main_arg0 : FVec F S2x512x64 .f32) (main_arg1 : FVec F S2x512x512x64 .f32) (main_arg2 : FVec F S2x512x512 .f32) (main_arg3 : FVec F S64x192 .f32) (main_arg4 : FVec F S64 .f32) (main_arg5 : FVec F S192x64 .f32) (main_arg6 : FVec F S192x64 .f32) (main_arg7 : FVec F S192 .f32) (main_arg8 : FVec F S192 .f32) : IVec S_ 1 :=
  let main_v0 : FVec F S2x512x64 .f32 := Host.absf main_arg0
  let main_cst : FVec F S_ .f32 := constant S_ .f32 0x7F800000#32
  let main_v1 : FVec F S2x512x64 .f32 := broadcastInDim S2x512x64 ![] bcast_S_S2x512x64 main_cst
  let main_v2 : IVec S2x512x64 1 := cmpf .olt main_v0 main_v1
  let main_c : IVec S_ 1 := constantI S_ 1 1#1
  let main_v3 : IVec S_ 1 := (fun x v => Host.reduce IntOp.andi x v reducesTo_S2x512x64_S_d0_1_2 h_S_) main_v2 main_c
  let main_v4 : FVec F S2x512x512x64 .f32 := Host.absf main_arg1
  let main_cst_0 : FVec F S_ .f32 := constant S_ .f32 0x7F800000#32
  let main_v5 : FVec F S2x512x512x64 .f32 := broadcastInDim S2x512x512x64 ![] bcast_S_S2x512x512x64 main_cst_0
  let main_v6 : IVec S2x512x512x64 1 := cmpf .olt main_v4 main_v5
  let main_c_1 : IVec S_ 1 := constantI S_ 1 1#1
  let main_v7 : IVec S_ 1 := (fun x v => Host.reduce IntOp.andi x v reducesTo_S2x512x512x64_S_d0_1_2_3 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S64x192 .f32 := Host.absf main_arg3
  let main_cst_4 : FVec F S_ .f32 := constant S_ .f32 0x7F800000#32
  let main_v15 : FVec F S64x192 .f32 := broadcastInDim S64x192 ![] bcast_S_S64x192 main_cst_4
  let main_v16 : IVec S64x192 1 := cmpf .olt main_v14 main_v15
  fn_part1 (F := F) main_arg4 main_arg5 main_arg6 main_arg7 main_arg8 main_v13 main_v16
-- ==== Kernel.lean ====
abbrev S2x512x64 : Shape := ⟨3, ![2, 512, 64]⟩
abbrev S2x512x512x64 : Shape := ⟨4, ![2, 512, 512, 64]⟩
abbrev S2x512x512 : Shape := ⟨3, ![2, 512, 512]⟩
abbrev S64x192 : Shape := ⟨2, ![64, 192]⟩
abbrev S64 : Shape := ⟨1, ![64]⟩
abbrev S192x64 : Shape := ⟨2, ![192, 64]⟩
abbrev S192 : Shape := ⟨1, ![192]⟩
abbrev S64x64 : Shape := ⟨2, ![64, 64]⟩
abbrev S64x256 : Shape := ⟨2, ![64, 256]⟩
abbrev S256 : Shape := ⟨1, ![256]⟩
abbrev S1x64x64 : Shape := ⟨3, ![1, 64, 64]⟩
abbrev S1x128x64 : Shape := ⟨3, ![1, 128, 64]⟩
abbrev S1x64x128x64 : Shape := ⟨4, ![1, 64, 128, 64]⟩
abbrev S1x64x128 : Shape := ⟨3, ![1, 64, 128]⟩
abbrev S128x64 : Shape := ⟨2, ![128, 64]⟩
abbrev S64x128x64 : Shape := ⟨3, ![64, 128, 64]⟩
abbrev S64x128 : Shape := ⟨2, ![64, 128]⟩
abbrev S8192x64 : Shape := ⟨2, ![8192, 64]⟩
abbrev S8192x256 : Shape := ⟨2, ![8192, 256]⟩
abbrev S1x256 : Shape := ⟨2, ![1, 256]⟩
abbrev S8192x128 : Shape := ⟨2, ![8192, 128]⟩
abbrev S64x1x64 : Shape := ⟨3, ![64, 1, 64]⟩
abbrev S64x128x1 : Shape := ⟨3, ![64, 128, 1]⟩
abbrev S8192x192 : Shape := ⟨2, ![8192, 192]⟩
abbrev S1x192 : Shape := ⟨2, ![1, 192]⟩

abbrev nBuf : Space → Nat
  | .hbm => 20
  | .vmem => 16
  | .smem => 0
  | _ => 0

abbrev bufTy : (tb : Table) → Fin (tcTables nBuf tb) → BufTy
  | .hbm, ⟨0, _⟩ => ⟨S2x512x64, .f32⟩
  | .hbm, ⟨1, _⟩ => ⟨S2x512x512x64, .f32⟩
  | .hbm, ⟨2, _⟩ => ⟨S2x512x512, .f32⟩
  | .hbm, ⟨3, _⟩ => ⟨S64x192, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x192, .f32⟩
  | .hbm, ⟨16, _⟩ => ⟨S64x192, .f32⟩
  | .hbm, ⟨17, _⟩ => ⟨S64x256, .f32⟩
  | .hbm, ⟨18, _⟩ => ⟨S256, .f32⟩
  | .hbm, ⟨19, _⟩ => ⟨S2x512x512x64, .f32⟩
  | .local _ .vmem, ⟨0, _⟩ => ⟨S1x64x64, .f32⟩
  | .local _ .vmem, ⟨1, _⟩ => ⟨S1x64x64, .f32⟩
  | .local _ .vmem, ⟨2, _⟩ => ⟨S1x128x64, .f32⟩
  | .local _ .vmem, ⟨3, _⟩ => ⟨S1x128x64, .f32⟩
  | .local _ .vmem, ⟨4, _⟩ => ⟨S1x64x128x64, .f32⟩
  | .local _ .vmem, ⟨5, _⟩ => ⟨S1x64x128x64, .f32⟩
  | .local _ .vmem, ⟨6, _⟩ => ⟨S1x64x128, .f32⟩
  | .local _ .vmem, ⟨7, _⟩ => ⟨S1x64x128, .f32⟩
  | .local _ .vmem, ⟨8, _⟩ => ⟨S64x64, .f32⟩
  | .local _ .vmem, ⟨9, _⟩ => ⟨S64x64, .f32⟩
  | .local _ .vmem, ⟨10, _⟩ => ⟨S64x256, .f32⟩
  | .local _ .vmem, ⟨11, _⟩ => ⟨S256, .f32⟩
  | .local _ .vmem, ⟨12, _⟩ => ⟨S64x192, .f32⟩
  | .local _ .vmem, ⟨13, _⟩ => ⟨S192, .f32⟩
  | .local _ .vmem, ⟨14, _⟩ => ⟨S1x64x128x64, .f32⟩
  | .local _ .vmem, ⟨15, _⟩ => ⟨S1x64x128x64, .f32⟩
  | _, _ => ⟨S2x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S64x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x64x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  slices_S64x192_S64x64_0_0 : S64x192.Slices ![0, 0] S64x64
  slices_S64x192_S64x64_0_64 : S64x192.Slices ![0, 64] S64x64
  slices_S64x192_S64x64_0_128 : S64x192.Slices ![0, 128] S64x64
  transposes_S64x64_S64x64_1_0 : S64x64.Transposes [1, 0] S64x64
  transposes_S192x64_S64x192_1_0 : S192x64.Transposes [1, 0] S64x192
  concatenates_S64x64_S64x192_S64x256_d1 : Shape.Concatenates [S64x64, S64x192] S64x256 1
  concatenates_S64_S192_S256_d0 : Shape.Concatenates [S64, S192] S256 0
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x64x128x64_S1x64x128x64_0_0_0_0 : ∀ a, (![0, 0, 0, 0] : Fin 4 → Nat) a + S1x64x128x64.size a ≤ S1x64x128x64.size a
  h_S1x64x128x64 : 0 < S1x64x128x64.numel
  shapeCasts_S1x64x128x64_S64x128x64 : S1x64x128x64.ShapeCasts S64x128x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x128x64_S8192x64 : S64x128x64.ShapeCasts S8192x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S8192x256 : S1x256.Broadcasts S8192x256
  slices_S8192x256_o0_0_S8192x64 : S8192x256.Slices ![0, 0] S8192x64
  shapeCasts_S8192x64_S64x128x64 : S8192x64.ShapeCasts S64x128x64
  slices_S8192x256_o0_64_S8192x128 : S8192x256.Slices ![0, 64] S8192x128
  slices_S8192x256_o0_192_S8192x64 : S8192x256.Slices ![0, 192] S8192x64
  shapeCasts_S64x64_S64x1x64 : S64x64.ShapeCasts S64x1x64
  broadcasts_S64x1x64_S64x128x64 : S64x1x64.Broadcasts S64x128x64
  shapeCasts_S128x64_S1x128x64 : S128x64.ShapeCasts S1x128x64
  broadcasts_S1x128x64_S64x128x64 : S1x128x64.Broadcasts S64x128x64
  shapeCasts_S64x128_S64x128x1 : S64x128.ShapeCasts S64x128x1
  broadcasts_S64x128x1_S64x128x64 : S64x128x1.Broadcasts S64x128x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192_S192_0 : ∀ a, (![0] : Fin 1 → Nat) a + S192.size a ≤ S192.size a
  h_S192 : 0 < S192.numel
  shapeCasts_S192_S1x192 : S192.ShapeCasts S1x192
  broadcasts_S1x192_S8192x192 : S1x192.Broadcasts S8192x192
  slices_S8192x192_o0_0_S8192x128 : S8192x192.Slices ![0, 0] S8192x128
  slices_S8192x128_o0_0_S8192x64 : S8192x128.Slices ![0, 0] S8192x64
  slices_S8192x128_o0_64_S8192x64 : S8192x128.Slices ![0, 64] S8192x64
  slices_S8192x192_o0_128_S8192x64 : S8192x192.Slices ![0, 128] S8192x64
  shapeCasts_S64x128x64_S1x64x128x64 : S64x128x64.ShapeCasts S1x64x128x64
  dot_S64x64_S64x64_S64x64_1_0_0_1_n_n_wf : DotDims.WF S64x64 S64x64 S64x64 [1] [0] [0] [1] [] []
  dot_S128x64_S64x64_S128x64_1_0_0_1_n_n_wf : DotDims.WF S128x64 S64x64 S128x64 [1] [0] [0] [1] [] []
  dot_S8192x64_S64x256_S8192x256_1_0_0_1_n_n_wf : DotDims.WF S8192x64 S64x256 S8192x256 [1] [0] [0] [1] [] []
  dot_S8192x64_S64x192_S8192x192_1_0_0_1_n_n_wf : DotDims.WF S8192x64 S64x192 S8192x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S2x512x64.size a
  hwx0_0 : ∀ i : grid0.Coords, EltTy.bits .f32 = 32 ∨ (Rect.block (s := S2x512x64) S1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S2x512x64.size a
  hwx0_1 : ∀ i : grid0.Coords, EltTy.bits .f32 = 32 ∨ (Rect.block (s := S2x512x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x64.size a ≤ S2x512x512x64.size a
  hwx0_2 : ∀ i : grid0.Coords, EltTy.bits .f32 = 32 ∨ (Rect.block (s := S2x512x512x64) S1x64x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S2x512x512.size a
  hwx0_3 : ∀ i : grid0.Coords, EltTy.bits .f32 = 32 ∨ (Rect.block (s := S2x512x512) S1x64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .f32 = 32 ∨ (Rect.block (s := S64x256) S64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x192.size a ≤ S64x192.size a
  hwx0_8 : ∀ i : grid0.Coords, EltTy.bits .f32 = 32 ∨ (Rect.block (s := S64x192) S64x192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192.size a ≤ S192.size a
  hwx0_9 : ∀ i : grid0.Coords, EltTy.bits .f32 = 32 ∨ (Rect.block (s := S192) S192.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x128x64.size a ≤ S2x512x512x64.size a
  hwx0_10 : ∀ i : grid0.Coords, EltTy.bits .f32 = 32 ∨ (Rect.block (s := S2x512x512x64) S1x64x128x64.size (cc0_transform_10 i) (hinb0_10 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf

abbrev win0_0 : Pipeline.Window sig grid0 :=
  Pipeline.Window.ofSpec (Memref.whole main_arg0) S1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x64x128x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x512x64 : Shape := ⟨3, ![2, 512, 64]⟩
abbrev S2x512x512x64 : Shape := ⟨4, ![2, 512, 512, 64]⟩
abbrev S2x512x512 : Shape := ⟨3, ![2, 512, 512]⟩
abbrev S64x192 : Shape := ⟨2, ![64, 192]⟩
abbrev S64 : Shape := ⟨1, ![64]⟩
abbrev S192x64 : Shape := ⟨2, ![192, 64]⟩
abbrev S192 : Shape := ⟨1, ![192]⟩
abbrev S64x64 : Shape := ⟨2, ![64, 64]⟩
abbrev S2x1x512x64 : Shape := ⟨4, ![2, 1, 512, 64]⟩
abbrev S2x512x1x64 : Shape := ⟨4, ![2, 512, 1, 64]⟩
abbrev S1x1x1x64 : Shape := ⟨4, ![1, 1, 1, 64]⟩
abbrev S2x512x512x1 : Shape := ⟨4, ![2, 512, 512, 1]⟩
abbrev S2x512x512x192 : Shape := ⟨4, ![2, 512, 512, 192]⟩
abbrev S1x1x1x192 : Shape := ⟨4, ![1, 1, 1, 192]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S2x512x64, .f32⟩
  | .hbm, ⟨1, _⟩ => ⟨S2x512x512x64, .f32⟩
  | .hbm, ⟨2, _⟩ => ⟨S2x512x512, .f32⟩
  | .hbm, ⟨3, _⟩ => ⟨S64x192, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S2x512x64, .f32⟩
  | .hbm, ⟨13, _⟩ => ⟨S2x1x512x64, .f32⟩
  | .hbm, ⟨14, _⟩ => ⟨S2x512x64, .f32⟩
  | .hbm, ⟨15, _⟩ => ⟨S2x512x1x64, .f32⟩
  | .hbm, ⟨16, _⟩ => ⟨S2x512x512x64, .f32⟩
  | .hbm, ⟨17, _⟩ => ⟨S2x512x512x64, .f32⟩
  | .hbm, ⟨18, _⟩ => ⟨S2x512x512x64, .f32⟩
  | .hbm, ⟨19, _⟩ => ⟨S2x512x512x64, .f32⟩
  | .hbm, ⟨20, _⟩ => ⟨S2x512x512x64, .f32⟩
  | .hbm, ⟨21, _⟩ => ⟨S1x1x1x64, .f32⟩
  | .hbm, ⟨22, _⟩ => ⟨S2x512x512x64, .f32⟩
  | .hbm, ⟨23, _⟩ => ⟨S2x512x512x64, .f32⟩
  | .hbm, ⟨24, _⟩ => ⟨S2x512x512x1, .f32⟩
  | .hbm, ⟨25, _⟩ => ⟨S2x512x512x64, .f32⟩
  | .hbm, ⟨26, _⟩ => ⟨S2x512x512x64, .f32⟩
  | .hbm, ⟨27, _⟩ => ⟨S2x512x512x192, .f32⟩
  | .hbm, ⟨28, _⟩ => ⟨S1x1x1x192, .f32⟩
  | .hbm, ⟨29, _⟩ => ⟨S2x512x512x192, .f32⟩
  | .hbm, ⟨30, _⟩ => ⟨S2x512x512x192, .f32⟩
  | .hbm, ⟨31, _⟩ => ⟨S2x512x512x192, .f32⟩
  | .hbm, ⟨32, _⟩ => ⟨S1x1x1x192, .f32⟩
  | .hbm, ⟨33, _⟩ => ⟨S2x512x512x192, .f32⟩
  | .hbm, ⟨34, _⟩ => ⟨S2x512x512x192, .f32⟩
  | .hbm, ⟨35, _⟩ => ⟨S2x512x512x64, .f32⟩
  | .hbm, ⟨36, _⟩ => ⟨S2x512x512x64, .f32⟩
  | .hbm, ⟨37, _⟩ => ⟨S2x512x512x64, .f32⟩
  | .hbm, ⟨38, _⟩ => ⟨S2x512x512x64, .f32⟩
  | .hbm, ⟨39, _⟩ => ⟨S2x512x512x64, .f32⟩
  | .hbm, ⟨40, _⟩ => ⟨S2x512x512x64, .f32⟩
  | .hbm, ⟨41, _⟩ => ⟨S2x512x512x64, .f32⟩
  | .hbm, ⟨42, _⟩ => ⟨S2x512x512x64, .f32⟩
  | .hbm, ⟨43, _⟩ => ⟨S2x512x512x64, .f32⟩
  | .hbm, ⟨44, _⟩ => ⟨S_, .f32⟩
  | .hbm, ⟨45, _⟩ => ⟨S2x512x512x64, .f32⟩
  | .hbm, ⟨46, _⟩ => ⟨S2x512x512x64, .f32⟩
  | .hbm, ⟨47, _⟩ => ⟨S_, .f32⟩
  | .hbm, ⟨48, _⟩ => ⟨S2x512x512x64, .f32⟩
  | .hbm, ⟨49, _⟩ => ⟨S2x512x512x64, .f32⟩
  | .hbm, ⟨50, _⟩ => ⟨S2x512x512x64, .f32⟩
  | .hbm, ⟨51, _⟩ => ⟨S2x512x512x64, .f32⟩
  | .hbm, ⟨52, _⟩ => ⟨S2x512x512x64, .f32⟩
  | .hbm, ⟨53, _⟩ => ⟨S_, .f32⟩
  | .hbm, ⟨54, _⟩ => ⟨S2x512x512x64, .f32⟩
  | .hbm, ⟨55, _⟩ => ⟨S2x512x512x64, .f32⟩
  | .hbm, ⟨56, _⟩ => ⟨S_, .f32⟩
  | .hbm, ⟨57, _⟩ => ⟨S2x512x512x64, .f32⟩
  | .hbm, ⟨58, _⟩ => ⟨S2x512x512x64, .f32⟩
  | .hbm, ⟨59, _⟩ => ⟨S2x512x512x64, .f32⟩
  | .hbm, ⟨60, _⟩ => ⟨S2x512x512x64, .f32⟩
  | .hbm, ⟨61, _⟩ => ⟨S2x512x512x64, .f32⟩
  | .hbm, ⟨62, _⟩ => ⟨S_, .f32⟩
  | .hbm, ⟨63, _⟩ => ⟨S2x512x512x64, .f32⟩
  | .hbm, ⟨64, _⟩ => ⟨S2x512x512x64, .f32⟩
  | .hbm, ⟨65, _⟩ => ⟨S2x512x512x64, .f32⟩
  | .hbm, ⟨66, _⟩ => ⟨S2x512x512x64, .f32⟩
  | .hbm, ⟨67, _⟩ => ⟨S2x512x512x64, .f32⟩
  | .hbm, ⟨68, _⟩ => ⟨S2x512x512x64, .f32⟩
  | .hbm, ⟨69, _⟩ => ⟨S2x512x512x64, .f32⟩
  | .hbm, ⟨70, _⟩ => ⟨S_, .f32⟩
  | .hbm, ⟨71, _⟩ => ⟨S2x512x512x64, .f32⟩
  | .hbm, ⟨72, _⟩ => ⟨S2x512x512x64, .f32⟩
  | .hbm, ⟨73, _⟩ => ⟨S_, .f32⟩
  | .hbm, ⟨74, _⟩ => ⟨S2x512x512x64, .f32⟩
  | .hbm, ⟨75, _⟩ => ⟨S2x512x512x64, .f32⟩
  | .hbm, ⟨76, _⟩ => ⟨S2x512x512x64, .f32⟩
  | _, _ => ⟨S2x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S64x192_S64x64_0_0 : S64x192.Slices ![0, 0] S64x64
  slices_S64x192_S64x64_0_64 : S64x192.Slices ![0, 64] S64x64
  slices_S64x192_S64x64_0_128 : S64x192.Slices ![0, 128] S64x64
  bcast_S2x512x64_S2x1x512x64_0_2_3 : S2x512x64.BroadcastsInDim S2x1x512x64 (![0, 2, 3] : Fin 3 → Fin S2x1x512x64.rank)
  bcast_S2x512x64_S2x512x1x64_0_1_3 : S2x512x64.BroadcastsInDim S2x512x1x64 (![0, 1, 3] : Fin 3 → Fin S2x512x1x64.rank)
  bcast_S2x1x512x64_S2x512x512x64_0_1_2_3 : S2x1x512x64.BroadcastsInDim S2x512x512x64 (![0, 1, 2, 3] : Fin 4 → Fin S2x512x512x64.rank)
  bcast_S2x512x1x64_S2x512x512x64_0_1_2_3 : S2x512x1x64.BroadcastsInDim S2x512x512x64 (![0, 1, 2, 3] : Fin 4 → Fin S2x512x512x64.rank)
  bcast_S64_S1x1x1x64_3 : S64.BroadcastsInDim S1x1x1x64 (![3] : Fin 1 → Fin S1x1x1x64.rank)
  bcast_S1x1x1x64_S2x512x512x64_0_1_2_3 : S1x1x1x64.BroadcastsInDim S2x512x512x64 (![0, 1, 2, 3] : Fin 4 → Fin S2x512x512x64.rank)
  bcast_S2x512x512_S2x512x512x1_0_1_2 : S2x512x512.BroadcastsInDim S2x512x512x1 (![0, 1, 2] : Fin 3 → Fin S2x512x512x1.rank)
  bcast_S2x512x512x1_S2x512x512x64_0_1_2_3 : S2x512x512x1.BroadcastsInDim S2x512x512x64 (![0, 1, 2, 3] : Fin 4 → Fin S2x512x512x64.rank)
  bcast_S192_S1x1x1x192_3 : S192.BroadcastsInDim S1x1x1x192 (![3] : Fin 1 → Fin S1x1x1x192.rank)
  bcast_S1x1x1x192_S2x512x512x192_0_1_2_3 : S1x1x1x192.BroadcastsInDim S2x512x512x192 (![0, 1, 2, 3] : Fin 4 → Fin S2x512x512x192.rank)
  slices_S2x512x512x192_S2x512x512x64_0_0_0_0 : S2x512x512x192.Slices ![0, 0, 0, 0] S2x512x512x64
  slices_S2x512x512x192_S2x512x512x64_0_0_0_64 : S2x512x512x192.Slices ![0, 0, 0, 64] S2x512x512x64
  slices_S2x512x512x192_S2x512x512x64_0_0_0_128 : S2x512x512x192.Slices ![0, 0, 0, 128] S2x512x512x64
  bcast_S_S2x512x512x64 : S_.BroadcastsInDim S2x512x512x64 (![] : Fin 0 → Fin S2x512x512x64.rank)
  dot_S2x512x64_S64x64_S2x512x64_2_1_01_0_n_n_wf : DotDims.WF S2x512x64 S64x64 S2x512x64 [2] [1] [0, 1] [0] [] []
  dot_S2x512x512x64_S64x64_S2x512x512x64_3_1_012_0_n_n_wf : DotDims.WF S2x512x512x64 S64x64 S2x512x512x64 [3] [1] [0, 1, 2] [0] [] []
  dot_S2x512x512x64_S192x64_S2x512x512x192_3_1_012_0_n_n_wf : DotDims.WF S2x512x512x64 S192x64 S2x512x512x192 [3] [1] [0, 1, 2] [0] [] []

variable [Facts₀]

def dot_S2x512x64_S64x64_S2x512x64_2_1_01_0_n_n : DotDims S2x512x64 S64x64 S2x512x64 where
  lhsContracting := [2]
  rhsContracting := [1]
  lhsNonContracting := [0, 1]
  rhsNonContracting := [0]
  lhsBatch := []
  rhsBatch := []
  wf := dot_S2x512x64_S64x64_S2x512x64_2_1_01_0_n_n_wf
def dot_S2x512x512x64_S64x64_S2x512x512x64_3_1_012_0_n_n : DotDims S2x512x512x64 S64x64 S2x512x512x64 where
  lhsContracting := [3]
  rhsContracting := [1]
  lhsNonContracting := [0, 1, 2]
  rhsNonContracting := [0]
  lhsBatch := []
  rhsBatch := []
  wf := dot_S2x512x512x64_S64x64_S2x512x512x64_3_1_012_0_n_n_wf
def dot_S2x512x512x64_S192x64_S2x512x512x192_3_1_012_0_n_n : DotDims S2x512x512x64 S192x64 S2x512x512x192 where
  lhsContracting := [3]
  rhsContracting := [1]
  lhsNonContracting := [0, 1, 2]
  rhsNonContracting := [0]
  lhsBatch := []
  rhsBatch := []
  wf := dot_S2x512x512x64_S192x64_S2x512x512x192_3_1_012_0_n_n_wf

class Facts : Prop extends Facts₀ where

variable [Facts]
-- ==== Proof.BodyK.lean ====
/-
  The kernel body at one grid point, on whole staging buffers: it loads the ten input blocks, computes, and
  stores one block; the input buffers are left as they were and the output buffer ends holding `out10` of the
  input blocks, the payload the printed program's skeleton names. Also: the contents of the device's buffers
  when the region is entered (the ten host operations that slice, transpose and concatenate the weights applied
  to the launch memory), the fact that none of those operations writes an argument array, and each window's
  block at a grid point read off those contents.
-/
import proofs.«128466_j5884105196042_2_alg».proof.Proof.Gen.Kernel.Launch
import proofs.«128466_j5884105196042_2_alg».proof.Proof.Gen.Kernel.Skeleton
import proofs.«128466_j5884105196042_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core c's buffers when the region is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes buffer b when b is none of the ten buffers they write. -/
theorem V_of_not_written (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) _ _ (List.forall_iff_forall_mem.mp (by
    obtain ⟨h0, h1, h2, h3, h4, h5, h6, h7, h8, h9⟩ := h
    simp only [hostOps0, List.Forall, StableHlo.unary_writes, StableHlo.binary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole buffer -/

abbrev r3 : Rect S1x64x64 := Rect.unit (s := S1x64x64) ![0, 0, 0] S1x64x64.size inb_S1x64x64_S1x64x64_0_0_0
abbrev r4 : Rect S1x128x64 := Rect.unit (s := S1x128x64) ![0, 0, 0] S1x128x64.size inb_S1x128x64_S1x128x64_0_0_0
abbrev r5 : Rect S1x64x128x64 := Rect.unit (s := S1x64x128x64) ![0, 0, 0, 0] S1x64x128x64.size inb_S1x64x128x64_S1x64x128x64_0_0_0_0
abbrev r6 : Rect S1x64x128 := Rect.unit (s := S1x64x128) ![0, 0, 0] S1x64x128.size inb_S1x64x128_S1x64x128_0_0_0
abbrev r7 : Rect S64x64 := Rect.unit (s := S64x64) ![0, 0] S64x64.size inb_S64x64_S64x64_0_0
abbrev r9 : Rect S64x256 := Rect.unit (s := S64x256) ![0, 0] S64x256.size inb_S64x256_S64x256_0_0
abbrev r10 : Rect S256 := Rect.unit (s := S256) ![0] S256.size inb_S256_S256_0
abbrev r11 : Rect S64x192 := Rect.unit (s := S64x192) ![0, 0] S64x192.size inb_S64x192_S64x192_0_0
abbrev r12 : Rect S192 := Rect.unit (s := S192) ![0] S192.size inb_S192_S192_0

/-- The value the body stores, from the ten input blocks (x0 the receivers' rows, x1 the senders' rows, x2 the
    edge block, x3 the adjacency block, x4 … x9 the six weight and bias blocks). -/
def pay10 (x0 : Vec F S1x64x64 .f32) (x1 : Vec F S1x128x64 .f32) (x2 : Vec F S1x64x128x64 .f32) (x3 : Vec F S1x64x128 .f32)
    (x4 x5 : Vec F S64x64 .f32) (x6 : Vec F S64x256 .f32) (x7 : Vec F S256 .f32) (x8 : Vec F S64x192 .f32) (x9 : Vec F S192 .f32) :
    Vec F S1x64x128x64 .f32 :=
  k0_pay1 (k0_pay2 (View.ld x2 r5)) (k0_pay4 (View.ld x2 r5) (View.ld x6 r9) (View.ld x7 r10)) (k0_pay5 (View.ld x2 r5) (View.ld x6 r9) (View.ld x7 r10))
    (k0_pay6 (View.ld x0 r3) (View.ld x1 r4) (View.ld x2 r5) (View.ld x5 r7) (View.ld x4 r7) (View.ld x6 r9) (View.ld x7 r10)) (k0_pay7 (View.ld x3 r6))
    (View.ld x8 r11) (View.ld x9 r12)

/-- What the output window's staging buffer holds after the body: its one store, of the whole buffer. -/
def out10 (x0 : Vec F S1x64x64 .f32) (x1 : Vec F S1x128x64 .f32) (x2 : Vec F S1x64x128x64 .f32) (x3 : Vec F S1x64x128 .f32)
    (x4 x5 : Vec F S64x64 .f32) (x6 : Vec F S64x256 .f32) (x7 : Vec F S256 .f32) (x8 : Vec F S64x192 .f32) (x9 : Vec F S192 .f32) :
    Vec F S1x64x128x64 .f32 :=
  View.canon [⟨r5, pay10 x0 x1 x2 x3 x4 x5 x6 x7 x8 x9⟩]

/-- The one store covers the buffer. -/
theorem cover10 (p0 : Vec F S1x64x128x64 .f32) (y : S1x64x128x64.Idx) :
    ∃ pc ∈ ([⟨r5, p0⟩] : List (View.Piece (Elt F) S1x64x128x64 .f32)), y ∈ pc.1.set :=
  View.cover_of_tiled [⟨r5, p0⟩] S1x64x128x64.size (by rfl) y

/-! ## The body's triple -/

set_option maxHeartbeats 4000000 in
/-- The kernel body on whole staging buffers, the inputs' at read contents x0 … x9 and the output's at anything,
    runs to the continuation holding the inputs' as they were and the output's at `out10` of the inputs'. -/
theorem sound_kernel (c : Dev nD) (E : Set ℕ) (i : grid0.Coords)
    (arg3 : Memref sig .tc .vmem S1x64x64 .f32) (harg3 : arg3.IsWhole) (arg4 : Memref sig .tc .vmem S1x128x64 .f32) (harg4 : arg4.IsWhole)
    (arg5 : Memref sig .tc .vmem S1x64x128x64 .f32) (harg5 : arg5.IsWhole) (arg6 : Memref sig .tc .vmem S1x64x128 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S64x256 .f32) (harg9 : arg9.IsWhole) (arg10 : Memref sig .tc .vmem S256 .f32) (harg10 : arg10.IsWhole)
    (arg11 : Memref sig .tc .vmem S64x192 .f32) (harg11 : arg11.IsWhole) (arg12 : Memref sig .tc .vmem S192 .f32) (harg12 : arg12.IsWhole)
    (arg13 : Memref sig .tc .vmem S1x64x128x64 .f32) (harg13 : arg13.IsWhole)
    (x0 : Vec F S1x64x64 .f32) (x1 : Vec F S1x128x64 .f32) (x2 : Vec F S1x64x128x64 .f32) (x3 : Vec F S1x64x128 .f32)
    (x4 x5 : Vec F S64x64 .f32) (x6 : Vec F S64x256 .f32) (x7 : Vec F S256 .f32) (x8 : Vec F S64x192 .f32) (x9 : Vec F S192 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7 ∗ owns (c : Thread nD τ) arg11 fullShare x8
        ∗ owns (c : Thread nD τ) arg12 fullShare x9 ∗ (∃ d, owns (c : Thread nD τ) arg13 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7 ∗ owns (c : Thread nD τ) arg11 fullShare x8
            ∗ owns (c : Thread nD τ) arg12 fullShare x9 ∗ owns (c : Thread nD τ) arg13 fullShare (out10 x0 x1 x2 x3 x4 x5 x6 x7 x8 x9)) -∗ K ⟨⟩))
      ⊢ wp frame (wpE (defs₀ (F := F)) Variants.none c none) E
          (cc0__mp_kernel i arg3 harg3 arg4 harg4 arg5 harg5 arg6 harg6 arg7 harg7 arg8 harg8 arg9 harg9 arg10 harg10 arg11 harg11 arg12 harg12 arg13 harg13) K := by
  simp only [cc0__mp_kernel_eq_skeleton]; unfold cc0__mp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

end Cert.Kernel.Hand

end
-- ==== Proof.RunK.lean ====
/-
  The run of the whole program: the host operations, then the region over its 64 grid points. The proof data say
  what each window's staging buffer holds after the body at each point (an input's buffer its block, the output's
  the stored block), the body's triple gives the obligation at every point, and the launch theorem for windows that
  may share an array gives the run: the feature array is read by two windows (the receivers' rows and the senders'
  rows), so its full share is dealt half to each. The run's post names every window's array after the region — an
  input array as it was, the output array overwritten block by block by what the body stored — and every other
  buffer as the region found it.
-/
import proofs.«128466_j5884105196042_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The share of its array each input window holds: the two windows on the feature array a half each. -/
def qOf : Fin cfg0.W → PosShare TreeShare
  | ⟨0, _⟩ => fullShare.left
  | ⟨1, _⟩ => fullShare.right
  | _ => fullShare

/-- The region's invariant: the core's scoped buffers that are no staging buffer (there is none). -/
abbrev Φ0 (c : Dev nD) : sProp 𝕄 :=
  Pipeline.scopedRest (Ix := Unit) (Name := ℕ) (U := UR sig nD τ) (Lvl := ℕ) (Val := Elt F) spec0 c

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Φ0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t
    = out10 (iblk m c 0 t) (iblk m c 1 t) (iblk m c 2 t) (iblk m c 3 t) (iblk m c 4 t) (iblk m c 5 t) (iblk m c 6 t) (iblk m c 7 t) (iblk m c 8 t) (iblk m c 9 t) := by
  dsimp only [dats]

/-! Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The proof's resource algebra: one copy of the rounds algebra, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The ten distinct buffers behind the eleven windows' arrays. -/
theorem arrImage_eq : Finset.univ.image (Pipeline.arrRef spec0)
    = [main_arg0, main_arg1, main_arg2, main_v3, main_v4, main_v8, main_v9, main_v7, main_arg7, main_v10].toFinset := by decide

/-- The buffers behind the arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v3) ↦{fullShare} W main_v3)
          ∗ (((c : Thread nD τ).loc main_v4) ↦{fullShare} W main_v4) ∗ (((c : Thread nD τ).loc main_v8) ↦{fullShare} W main_v8)
          ∗ (((c : Thread nD τ).loc main_v9) ↦{fullShare} W main_v9) ∗ (((c : Thread nD τ).loc main_v7) ↦{fullShare} W main_v7)
          ∗ (((c : Thread nD τ).loc main_arg7) ↦{fullShare} W main_arg7) ∗ (((c : Thread nD τ).loc main_v10) ↦{fullShare} W main_v10)) :=
  bigSep_eq_bigSepL_of_eq [main_arg0, main_arg1, main_arg2, main_v3, main_v4, main_v8, main_v9, main_v7, main_arg7, main_v10] arrImage_eq (by decide) _

/-- A window's array, held at the window's share at its entry contents, is the buffer behind it at that share. -/
theorem arr_pt (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The buffers behind the arrays, each whole at the full share, make the proof data's arrays at entry: the feature
    array's full share is split in its two halves, one for the window of the receivers' rows and one for the window
    of the senders' rows; every other array goes whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have h1 : ((dats m 0 c).arrays ((dats m 0 c).arrAt · 0) : sProp 𝕄)
      = bigSep Finset.univ fun w : Fin cfg0.W => (((c.tc : Thread nD τ).loc (Pipeline.arrRef spec0 w)) ↦{(dats m 0 c).share w} V m c (Pipeline.arrRef spec0 w) : sProp 𝕄) := by
    unfold Dat.arrays
    exact bigSep_congr fun w _ => arr_pt m c w
  rw [h1, bigSep_W0, arrBufs_eq]
  iintro ⟨H0, H1, H2, H3, H4, H8, H9, H7, Ha7, H10⟩
  ihave Hs := (pointsTo_share (PosShare.mem_left_op_right fullShare)).1 $$ H0
  icases Hs with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H8]; · iexact H8
  isplitl [H9]; · iexact H9
  isplitl [H7]; · iexact H7
  isplitl [Ha7]; · iexact Ha7
  iexact H10

set_option backward.isDefEq.respectTransparency.types false in
/-- For any values, from any memory with zero counters: every weakly fair execution of the program terminates, and
    every final state has every window's array at what the proof data compute and every other unscoped buffer as
    the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => by
      show iprop(emp ∗ Φ0 c) ⊢ Φ0 c
      iintro ⟨-, H⟩; iexact H)
    (hout := fun c => by
      show Φ0 c ⊢ iprop(emp ∗ Φ0 c)
      iintro H; isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-! ## The frame -/

/-- From the run's post, the argument arrays end as launched: the feature, edge and adjacency arrays and the input
    gates' bias are arrays of input windows, which the region never writes; the other five bypass the region; and
    no host operation before the region writes an argument. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 9).trans (((dats m 0 c).arrAt_in 9 rfl _).trans ((A_eq m c 9).trans (V_main_arg7 m c))),
      ((h c).2 main_arg8 (Pipeline.mem_restRefs_of main_arg8 (by decide) (by decide))).trans (V_main_arg8 m c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept m r h c) (run_main m ρ)

/-- The result array after the run is what the proof data compute. -/
theorem post10 (r : PUnit × MemSt nD τ sig (Elt F)) (h : Pipeline.FramePost cfgs (dats m) 0 (V m) r) (c : Dev nD) :
    r.2.mem ((c.tc : Thread nD τ).loc main_v10) = (dats m 0 c).arrAt 10 cfg0.N := (h c).1 10

end Cert.Kernel.Hand

end
-- ==== Proof.BodyKI.lean ====
/-
  The kernel body at one grid point, on whole staging buffers: it loads the ten input blocks, computes, and
  stores one block; the input buffers are left as they were and the output buffer ends holding `out10` of the
  input blocks, the payload the printed program's skeleton names. Also: the contents of the device's buffers
  when the region is entered (the ten host operations that slice, transpose and concatenate the weights applied
  to the launch memory), the fact that none of those operations writes an argument array, and each window's
  block at a grid point read off those contents.
-/
import proofs.«128466_j5884105196042_2_alg».proof.Proof.Gen.KernelIdeal.Launch
import proofs.«128466_j5884105196042_2_alg».proof.Proof.Gen.KernelIdeal.Skeleton
import proofs.«128466_j5884105196042_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core c's buffers when the region is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes buffer b when b is none of the ten buffers they write. -/
theorem V_of_not_written (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) _ _ (List.forall_iff_forall_mem.mp (by
    obtain ⟨h0, h1, h2, h3, h4, h5, h6, h7, h8, h9⟩ := h
    simp only [hostOps0, List.Forall, StableHlo.unary_writes, StableHlo.binary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole buffer -/

abbrev r3 : Rect S1x64x64 := Rect.unit (s := S1x64x64) ![0, 0, 0] S1x64x64.size inb_S1x64x64_S1x64x64_0_0_0
abbrev r4 : Rect S1x128x64 := Rect.unit (s := S1x128x64) ![0, 0, 0] S1x128x64.size inb_S1x128x64_S1x128x64_0_0_0
abbrev r5 : Rect S1x64x128x64 := Rect.unit (s := S1x64x128x64) ![0, 0, 0, 0] S1x64x128x64.size inb_S1x64x128x64_S1x64x128x64_0_0_0_0
abbrev r6 : Rect S1x64x128 := Rect.unit (s := S1x64x128) ![0, 0, 0] S1x64x128.size inb_S1x64x128_S1x64x128_0_0_0
abbrev r7 : Rect S64x64 := Rect.unit (s := S64x64) ![0, 0] S64x64.size inb_S64x64_S64x64_0_0
abbrev r9 : Rect S64x256 := Rect.unit (s := S64x256) ![0, 0] S64x256.size inb_S64x256_S64x256_0_0
abbrev r10 : Rect S256 := Rect.unit (s := S256) ![0] S256.size inb_S256_S256_0
abbrev r11 : Rect S64x192 := Rect.unit (s := S64x192) ![0, 0] S64x192.size inb_S64x192_S64x192_0_0
abbrev r12 : Rect S192 := Rect.unit (s := S192) ![0] S192.size inb_S192_S192_0

/-- The value the body stores, from the ten input blocks (x0 the receivers' rows, x1 the senders' rows, x2 the
    edge block, x3 the adjacency block, x4 … x9 the six weight and bias blocks). -/
def pay10 (x0 : Vec F S1x64x64 .f32) (x1 : Vec F S1x128x64 .f32) (x2 : Vec F S1x64x128x64 .f32) (x3 : Vec F S1x64x128 .f32)
    (x4 x5 : Vec F S64x64 .f32) (x6 : Vec F S64x256 .f32) (x7 : Vec F S256 .f32) (x8 : Vec F S64x192 .f32) (x9 : Vec F S192 .f32) :
    Vec F S1x64x128x64 .f32 :=
  k0_pay1 (k0_pay2 (View.ld x2 r5)) (k0_pay4 (View.ld x2 r5) (View.ld x6 r9) (View.ld x7 r10)) (k0_pay5 (View.ld x2 r5) (View.ld x6 r9) (View.ld x7 r10))
    (k0_pay6 (View.ld x0 r3) (View.ld x1 r4) (View.ld x2 r5) (View.ld x5 r7) (View.ld x4 r7) (View.ld x6 r9) (View.ld x7 r10)) (k0_pay7 (View.ld x3 r6))
    (View.ld x8 r11) (View.ld x9 r12)

/-- What the output window's staging buffer holds after the body: its one store, of the whole buffer. -/
def out10 (x0 : Vec F S1x64x64 .f32) (x1 : Vec F S1x128x64 .f32) (x2 : Vec F S1x64x128x64 .f32) (x3 : Vec F S1x64x128 .f32)
    (x4 x5 : Vec F S64x64 .f32) (x6 : Vec F S64x256 .f32) (x7 : Vec F S256 .f32) (x8 : Vec F S64x192 .f32) (x9 : Vec F S192 .f32) :
    Vec F S1x64x128x64 .f32 :=
  View.canon [⟨r5, pay10 x0 x1 x2 x3 x4 x5 x6 x7 x8 x9⟩]

/-- The one store covers the buffer. -/
theorem cover10 (p0 : Vec F S1x64x128x64 .f32) (y : S1x64x128x64.Idx) :
    ∃ pc ∈ ([⟨r5, p0⟩] : List (View.Piece (Elt F) S1x64x128x64 .f32)), y ∈ pc.1.set :=
  View.cover_of_tiled [⟨r5, p0⟩] S1x64x128x64.size (by rfl) y

/-! ## The body's triple -/

set_option maxHeartbeats 4000000 in
/-- The kernel body on whole staging buffers, the inputs' at read contents x0 … x9 and the output's at anything,
    runs to the continuation holding the inputs' as they were and the output's at `out10` of the inputs'. -/
theorem sound_kernel (c : Dev nD) (E : Set ℕ) (i : grid0.Coords)
    (arg3 : Memref sig .tc .vmem S1x64x64 .f32) (harg3 : arg3.IsWhole) (arg4 : Memref sig .tc .vmem S1x128x64 .f32) (harg4 : arg4.IsWhole)
    (arg5 : Memref sig .tc .vmem S1x64x128x64 .f32) (harg5 : arg5.IsWhole) (arg6 : Memref sig .tc .vmem S1x64x128 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S64x256 .f32) (harg9 : arg9.IsWhole) (arg10 : Memref sig .tc .vmem S256 .f32) (harg10 : arg10.IsWhole)
    (arg11 : Memref sig .tc .vmem S64x192 .f32) (harg11 : arg11.IsWhole) (arg12 : Memref sig .tc .vmem S192 .f32) (harg12 : arg12.IsWhole)
    (arg13 : Memref sig .tc .vmem S1x64x128x64 .f32) (harg13 : arg13.IsWhole)
    (x0 : Vec F S1x64x64 .f32) (x1 : Vec F S1x128x64 .f32) (x2 : Vec F S1x64x128x64 .f32) (x3 : Vec F S1x64x128 .f32)
    (x4 x5 : Vec F S64x64 .f32) (x6 : Vec F S64x256 .f32) (x7 : Vec F S256 .f32) (x8 : Vec F S64x192 .f32) (x9 : Vec F S192 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7 ∗ owns (c : Thread nD τ) arg11 fullShare x8
        ∗ owns (c : Thread nD τ) arg12 fullShare x9 ∗ (∃ d, owns (c : Thread nD τ) arg13 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7 ∗ owns (c : Thread nD τ) arg11 fullShare x8
            ∗ owns (c : Thread nD τ) arg12 fullShare x9 ∗ owns (c : Thread nD τ) arg13 fullShare (out10 x0 x1 x2 x3 x4 x5 x6 x7 x8 x9)) -∗ K ⟨⟩))
      ⊢ wp frame (wpE (defs₀ (F := F)) Variants.none c none) E
          (cc0__mp_kernel i arg3 harg3 arg4 harg4 arg5 harg5 arg6 harg6 arg7 harg7 arg8 harg8 arg9 harg9 arg10 harg10 arg11 harg11 arg12 harg12 arg13 harg13) K := by
  simp only [cc0__mp_kernel_eq_skeleton]; unfold cc0__mp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

end Cert.KernelIdeal.Hand

end
-- ==== Proof.RunKI.lean ====
/-
  The run of the whole program: the host operations, then the region over its 64 grid points. The proof data say
  what each window's staging buffer holds after the body at each point (an input's buffer its block, the output's
  the stored block), the body's triple gives the obligation at every point, and the launch theorem for windows that
  may share an array gives the run: the feature array is read by two windows (the receivers' rows and the senders'
  rows), so its full share is dealt half to each. The run's post names every window's array after the region — an
  input array as it was, the output array overwritten block by block by what the body stored — and every other
  buffer as the region found it.
-/
import proofs.«128466_j5884105196042_2_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The share of its array each input window holds: the two windows on the feature array a half each. -/
def qOf : Fin cfg0.W → PosShare TreeShare
  | ⟨0, _⟩ => fullShare.left
  | ⟨1, _⟩ => fullShare.right
  | _ => fullShare

/-- The region's invariant: the core's scoped buffers that are no staging buffer (there is none). -/
abbrev Φ0 (c : Dev nD) : sProp 𝕄 :=
  Pipeline.scopedRest (Ix := Unit) (Name := ℕ) (U := UR sig nD τ) (Lvl := ℕ) (Val := Elt F) spec0 c

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Φ0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t
    = out10 (iblk m c 0 t) (iblk m c 1 t) (iblk m c 2 t) (iblk m c 3 t) (iblk m c 4 t) (iblk m c 5 t) (iblk m c 6 t) (iblk m c 7 t) (iblk m c 8 t) (iblk m c 9 t) := by
  dsimp only [dats]

/-! Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The proof's resource algebra: one copy of the rounds algebra, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The ten distinct buffers behind the eleven windows' arrays. -/
theorem arrImage_eq : Finset.univ.image (Pipeline.arrRef spec0)
    = [main_arg0, main_arg1, main_arg2, main_v3, main_v4, main_v8, main_v9, main_v7, main_arg7, main_v10].toFinset := by decide

/-- The buffers behind the arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v3) ↦{fullShare} W main_v3)
          ∗ (((c : Thread nD τ).loc main_v4) ↦{fullShare} W main_v4) ∗ (((c : Thread nD τ).loc main_v8) ↦{fullShare} W main_v8)
          ∗ (((c : Thread nD τ).loc main_v9) ↦{fullShare} W main_v9) ∗ (((c : Thread nD τ).loc main_v7) ↦{fullShare} W main_v7)
          ∗ (((c : Thread nD τ).loc main_arg7) ↦{fullShare} W main_arg7) ∗ (((c : Thread nD τ).loc main_v10) ↦{fullShare} W main_v10)) :=
  bigSep_eq_bigSepL_of_eq [main_arg0, main_arg1, main_arg2, main_v3, main_v4, main_v8, main_v9, main_v7, main_arg7, main_v10] arrImage_eq (by decide) _

/-- A window's array, held at the window's share at its entry contents, is the buffer behind it at that share. -/
theorem arr_pt (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The buffers behind the arrays, each whole at the full share, make the proof data's arrays at entry: the feature
    array's full share is split in its two halves, one for the window of the receivers' rows and one for the window
    of the senders' rows; every other array goes whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have h1 : ((dats m 0 c).arrays ((dats m 0 c).arrAt · 0) : sProp 𝕄)
      = bigSep Finset.univ fun w : Fin cfg0.W => (((c.tc : Thread nD τ).loc (Pipeline.arrRef spec0 w)) ↦{(dats m 0 c).share w} V m c (Pipeline.arrRef spec0 w) : sProp 𝕄) := by
    unfold Dat.arrays
    exact bigSep_congr fun w _ => arr_pt m c w
  rw [h1, bigSep_W0, arrBufs_eq]
  iintro ⟨H0, H1, H2, H3, H4, H8, H9, H7, Ha7, H10⟩
  ihave Hs := (pointsTo_share (PosShare.mem_left_op_right fullShare)).1 $$ H0
  icases Hs with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H8]; · iexact H8
  isplitl [H9]; · iexact H9
  isplitl [H7]; · iexact H7
  isplitl [Ha7]; · iexact Ha7
  iexact H10

set_option backward.isDefEq.respectTransparency.types false in
/-- For any values, from any memory with zero counters: every weakly fair execution of the program terminates, and
    every final state has every window's array at what the proof data compute and every other unscoped buffer as
    the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => by
      show iprop(emp ∗ Φ0 c) ⊢ Φ0 c
      iintro ⟨-, H⟩; iexact H)
    (hout := fun c => by
      show Φ0 c ⊢ iprop(emp ∗ Φ0 c)
      iintro H; isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-! ## The frame -/

/-- From the run's post, the argument arrays end as launched: the feature, edge and adjacency arrays and the input
    gates' bias are arrays of input windows, which the region never writes; the other five bypass the region; and
    no host operation before the region writes an argument. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 9).trans (((dats m 0 c).arrAt_in 9 rfl _).trans ((A_eq m c 9).trans (V_main_arg7 m c))),
      ((h c).2 main_arg8 (Pipeline.mem_restRefs_of main_arg8 (by decide) (by decide))).trans (V_main_arg8 m c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept m r h c) (run_main m ρ)

/-- The result array after the run is what the proof data compute. -/
theorem post10 (r : PUnit × MemSt nD τ sig (Elt F)) (h : Pipeline.FramePost cfgs (dats m) 0 (V m) r) (c : Dev nD) :
    r.2.mem ((c.tc : Thread nD τ).loc main_v10) = (dats m 0 c).arrAt 10 cfg0.N := (h c).1 10

end Cert.KernelIdeal.Hand

end
-- ==== Proof.Spec.lean ====
/-
  The specification: one step of edge message passing followed by a gated recurrent update, cell by cell.

  For a batch b, a receiving node i, a sending node j and an output feature e, the result depends only on
  the feature rows h[b,i,:] and h[b,j,:], the edge row edge[b,i,j,:], the scalar adj[b,i,j] and the
  weights. `lin` is the concatenated linear layer split in its three column blocks (the sender's features, the
  edge's, the receiver's) plus its bias; `msg` masks it by the adjacency entry; `gate` is one row of a gate
  projection; `cell` assembles the reset gate r, the update gate z, the candidate n, the new hidden value
  (1 - z) * n + z * edge and its SiLU. The sigmoid is spelt 1 / (1 + e^(-x)) over the word of 1.0, which
  is the extended real 1, so it is the logistic function. Everything is on the extended reals; no
  finiteness is used anywhere.
-/
import Idealize.ShloMosaic.PureOps.Ideal
import Idealize.ShloMosaic.PureOps.IdealRules
import Idealize.ShloMosaic.Lib.ValueIdx

noncomputable section

namespace Cert.MsgGru

open Idealize.ShloMosaic Idealize.ShloMosaic.ValueIdx

/-- The binary32 word of 1.0, read on the extended reals. -/
abbrev oneW : EReal := Ideal.ofBits .f32 0x3F800000#32

/-- The word of 1.0 denotes 1. -/
theorem oneW_eq : oneW = 1 := IdealRules.sign_bit.ideal_onePat .f32

/-- The sigmoid spelt as a quotient: 1 / (1 + e^(-x)). -/
def sigm (x : EReal) : EReal := Ideal.div oneW (oneW + Ideal.exp (-x))

/-- The quotient spelling is the logistic function, at every extended real. -/
theorem sigm_eq_logistic (x : EReal) : sigm x = Ideal.logistic x := by
  unfold sigm Ideal.logistic; rw [oneW_eq]

/-- Column e of the first, second and third block of 64 columns among 192. -/
def c0 (e : Fin 64) : Fin 192 := ⟨e.val, by omega⟩
def c1 (e : Fin 64) : Fin 192 := ⟨64 + e.val, by omega⟩
def c2 (e : Fin 64) : Fin 192 := ⟨128 + e.val, by omega⟩

/-- The linear layer on the concatenation [sender | edge | receiver], one output feature, with its bias:
    ((hj·W[e,0:64] + ed·W[e,64:128]) + hi·W[e,128:192]) + b[e]. -/
def lin (hi hj ed : Fin 64 → EReal) (Wl : Fin 64 → Fin 192 → EReal) (bl : Fin 64 → EReal) (e : Fin 64) : EReal :=
  (((∑ f : Fin 64, hj f * Wl e (c0 f)) + (∑ f : Fin 64, ed f * Wl e (c1 f))) + (∑ f : Fin 64, hi f * Wl e (c2 f))) + bl e

/-- The message: the linear layer masked by the adjacency entry. -/
def msg (hi hj ed : Fin 64 → EReal) (a : EReal) (Wl : Fin 64 → Fin 192 → EReal) (bl : Fin 64 → EReal) (e : Fin 64) : EReal :=
  lin hi hj ed Wl bl e * a

/-- One row of a gate projection: x · w[g,:] + b[g]. -/
def gate (x : Fin 64 → EReal) (w : Fin 192 → Fin 64 → EReal) (b : Fin 192 → EReal) (g : Fin 192) : EReal :=
  (∑ f : Fin 64, x f * w g f) + b g

/-- The gated update of one edge cell followed by SiLU: input the message, hidden state the edge row. -/
def cell (hi hj ed : Fin 64 → EReal) (a : EReal) (Wl : Fin 64 → Fin 192 → EReal) (bl : Fin 64 → EReal)
    (wih whh : Fin 192 → Fin 64 → EReal) (bih bhh : Fin 192 → EReal) (e : Fin 64) : EReal :=
  let gi := gate (msg hi hj ed a Wl bl) wih bih
  let gh := gate ed whh bhh
  let r := sigm (gi (c0 e) + gh (c0 e))
  let z := sigm (gi (c1 e) + gh (c1 e))
  let n := Ideal.tanh (gi (c2 e) + r * gh (c2 e))
  let nh := (oneW - z) * n + z * ed e
  nh * sigm nh

/-- The cell at batch b, receiver i, sender j, feature e, of the nine argument arrays. -/
def Gat (h : (⟨3, ![2, 512, 64]⟩ : Shape).Idx → EReal) (edge : (⟨4, ![2, 512, 512, 64]⟩ : Shape).Idx → EReal)
    (adj : (⟨3, ![2, 512, 512]⟩ : Shape).Idx → EReal) (Wl : (⟨2, ![64, 192]⟩ : Shape).Idx → EReal)
    (bl : (⟨1, ![64]⟩ : Shape).Idx → EReal) (wih whh : (⟨2, ![192, 64]⟩ : Shape).Idx → EReal)
    (bih bhh : (⟨1, ![192]⟩ : Shape).Idx → EReal) (b : Fin 2) (i j : Fin 512) (e : Fin 64) : EReal :=
  cell (fun f => h (ix3 b i f)) (fun f => h (ix3 b j f)) (fun f => edge (ix4 b i j f)) (adj (ix3 b i j))
    (fun o c => Wl (ix2 o c)) (fun o => bl (ix1 o)) (fun g f => wih (ix2 g f)) (fun g f => whh (ix2 g f))
    (fun g => bih (ix1 g)) (fun g => bhh (ix1 g)) e

/-- The whole result array as one function of the nine argument arrays. -/
def G (h : (⟨3, ![2, 512, 64]⟩ : Shape).Idx → EReal) (edge : (⟨4, ![2, 512, 512, 64]⟩ : Shape).Idx → EReal)
    (adj : (⟨3, ![2, 512, 512]⟩ : Shape).Idx → EReal) (Wl : (⟨2, ![64, 192]⟩ : Shape).Idx → EReal)
    (bl : (⟨1, ![64]⟩ : Shape).Idx → EReal) (wih whh : (⟨2, ![192, 64]⟩ : Shape).Idx → EReal)
    (bih bhh : (⟨1, ![192]⟩ : Shape).Idx → EReal) : (⟨4, ![2, 512, 512, 64]⟩ : Shape).Idx → EReal :=
  fun y => Gat h edge adj Wl bl wih whh bih bhh (y 0) (y 1) (y 2) (y 3)

theorem G_apply (h : (⟨3, ![2, 512, 64]⟩ : Shape).Idx → EReal) (edge : (⟨4, ![2, 512, 512, 64]⟩ : Shape).Idx → EReal)
    (adj : (⟨3, ![2, 512, 512]⟩ : Shape).Idx → EReal) (Wl : (⟨2, ![64, 192]⟩ : Shape).Idx → EReal)
    (bl : (⟨1, ![64]⟩ : Shape).Idx → EReal) (wih whh : (⟨2, ![192, 64]⟩ : Shape).Idx → EReal)
    (bih bhh : (⟨1, ![192]⟩ : Shape).Idx → EReal) (b : Fin 2) (i j : Fin 512) (e : Fin 64) :
    G h edge adj Wl bl wih whh bih bhh (ix4 b i j e) = Gat h edge adj Wl bl wih whh bih bhh b i j e := rfl

end Cert.MsgGru

end
-- ==== Proof.ValueKI.lean ====
/-
  The kernel's result array after the run, as one function of the argument arrays.

  Grid point t works on batch b, row tile i0 (64 receivers) and column tile j0 (128 senders): the output window's
  block index is (b, i0, j0, 0), the edge and adjacency windows move with it, the receivers' window reads rows
  i0·64 … of the feature array, the senders' window rows j0·128 …, and the six weight windows always read their
  whole arrays. So entry (0, p, q, e) of the block the body stores at t is the specification's cell at batch b,
  receiver i0·64 + p, sender j0·128 + q, feature e: that is block t of the specification's whole array. The 64
  blocks tile the array, hence the array ends holding the specification.
-/
import proofs.«128466_j5884105196042_2_alg».proof.Proof.RunKI
import proofs.«128466_j5884105196042_2_alg».proof.Proof.Spec
import Idealize.ShloMosaic.Lib.Pipeline.Value
import Idealize.ShloMosaic.Lib.ValueIdx

set_option maxRecDepth 16384

noncomputable section

namespace Cert.MsgGru.Value

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand Cert.MsgGru

variable (m : (ℓ : Loc nD τ sig) → Buf (Elt Ideal) ℓ) (ρ : Dev nD → PrngReg)

/-- The specification's array of the launch contents of the nine argument arrays on core c. -/
abbrev GK (c : Dev nD) : S2x512x512x64.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the weight buffers hold when the region is entered, entry by entry, in terms of the launch contents. -/
structure WFacts (c : Dev nD) : Prop where
  v3 : ∀ f e : Fin 64, V (F := Ideal) m c main_v3 (ix2 f e) = m ((c : Thread nD τ).loc main_arg3) (ix2 e (c0 f))
  v4 : ∀ f e : Fin 64, V (F := Ideal) m c main_v4 (ix2 f e) = m ((c : Thread nD τ).loc main_arg3) (ix2 e (c2 f))
  v8lo : ∀ f e : Fin 64, V (F := Ideal) m c main_v8 (ix2 f (⟨e.val, by omega⟩ : Fin 256)) = m ((c : Thread nD τ).loc main_arg3) (ix2 e (c1 f))
  v8hi : ∀ (f : Fin 64) (g : Fin 192), V (F := Ideal) m c main_v8 (ix2 f (⟨64 + g.val, by omega⟩ : Fin 256)) = m ((c : Thread nD τ).loc main_arg6) (ix2 g f)
  v9lo : ∀ e : Fin 64, V (F := Ideal) m c main_v9 (ix1 (⟨e.val, by omega⟩ : Fin 256)) = m ((c : Thread nD τ).loc main_arg4) (ix1 e)
  v9hi : ∀ g : Fin 192, V (F := Ideal) m c main_v9 (ix1 (⟨64 + g.val, by omega⟩ : Fin 256)) = m ((c : Thread nD τ).loc main_arg8) (ix1 g)
  v7 : ∀ (f : Fin 64) (g : Fin 192), V (F := Ideal) m c main_v7 (ix2 f g) = m ((c : Thread nD τ).loc main_arg5) (ix2 g f)

/-- What the body stores at one entry of its output block is the specification's cell of the rows the entry depends
    on, whenever the weight blocks are the transposed / fused weights (the statement proved about the payload). -/
def PayStmt : Prop :=
  ∀ (x0 : Vec Ideal S1x64x64 .f32) (x1 : Vec Ideal S1x128x64 .f32) (x2 : Vec Ideal S1x64x128x64 .f32)
    (x3 : Vec Ideal S1x64x128 .f32) (x4 x5 : Vec Ideal S64x64 .f32) (x6 : Vec Ideal S64x256 .f32) (x7 : Vec Ideal S256 .f32)
    (x8 : Vec Ideal S64x192 .f32) (x9 : Vec Ideal S192 .f32)
    (Wl : Fin 64 → Fin 192 → EReal) (bl : Fin 64 → EReal) (wih whh : Fin 192 → Fin 64 → EReal) (bih bhh : Fin 192 → EReal)
    (h4 : ∀ f e : Fin 64, x4 (ix2 f e) = Wl e (c0 f))
    (h5 : ∀ f e : Fin 64, x5 (ix2 f e) = Wl e (c2 f))
    (h6a : ∀ f e : Fin 64, x6 (ix2 f (⟨e.val, by omega⟩ : Fin 256)) = Wl e (c1 f))
    (h6b : ∀ (f : Fin 64) (g : Fin 192), x6 (ix2 f (⟨64 + g.val, by omega⟩ : Fin 256)) = whh g f)
    (h7a : ∀ e : Fin 64, x7 (ix1 (⟨e.val, by omega⟩ : Fin 256)) = bl e)
    (h7b : ∀ g : Fin 192, x7 (ix1 (⟨64 + g.val, by omega⟩ : Fin 256)) = bhh g)
    (h8 : ∀ (f : Fin 64) (g : Fin 192), x8 (ix2 f g) = wih g f)
    (h9 : ∀ g : Fin 192, x9 (ix1 g) = bih g)
    (p : Fin 64) (q : Fin 128) (e : Fin 64),
    k0_pay1 (F := Ideal) (k0_pay2 x2) (k0_pay4 x2 x6 x7) (k0_pay5 x2 x6 x7) (k0_pay6 x0 x1 x2 x5 x4 x6 x7) (k0_pay7 x3) x8 x9
        (ix4 (0 : Fin 1) p q e)
      = cell (fun f => x0 (ix3 (0 : Fin 1) p f)) (fun f => x1 (ix3 (0 : Fin 1) q f)) (fun f => x2 (ix4 (0 : Fin 1) p q f))
          (x3 (ix3 (0 : Fin 1) p q)) Wl bl wih whh bih bhh e

/-! ## The index maps over the grid -/

/-- The printed index maps, decided over the 64 grid points: the receivers' window follows the output's batch and
    row tile, the senders' window its batch and column tile, the edge and adjacency windows the output's block,
    the weight windows stay at block 0, and the output's block indices stay in their ranges. -/
theorem idx_facts : ∀ t : Fin cfg0.N,
    (win0_0.index t (0 : Fin 3) = win0_10.index t (0 : Fin 4) ∧ win0_0.index t (1 : Fin 3) = win0_10.index t (1 : Fin 4) ∧ win0_0.index t (2 : Fin 3) = 0)
    ∧ (win0_1.index t (0 : Fin 3) = win0_10.index t (0 : Fin 4) ∧ win0_1.index t (1 : Fin 3) = win0_10.index t (2 : Fin 4) ∧ win0_1.index t (2 : Fin 3) = 0)
    ∧ (win0_2.index t (0 : Fin 4) = win0_10.index t (0 : Fin 4) ∧ win0_2.index t (1 : Fin 4) = win0_10.index t (1 : Fin 4)
        ∧ win0_2.index t (2 : Fin 4) = win0_10.index t (2 : Fin 4) ∧ win0_2.index t (3 : Fin 4) = 0)
    ∧ (win0_3.index t (0 : Fin 3) = win0_10.index t (0 : Fin 4) ∧ win0_3.index t (1 : Fin 3) = win0_10.index t (1 : Fin 4)
        ∧ win0_3.index t (2 : Fin 3) = win0_10.index t (2 : Fin 4))
    ∧ (win0_4.index t (0 : Fin 2) = 0 ∧ win0_4.index t (1 : Fin 2) = 0 ∧ win0_5.index t (0 : Fin 2) = 0 ∧ win0_5.index t (1 : Fin 2) = 0
        ∧ win0_6.index t (0 : Fin 2) = 0 ∧ win0_6.index t (1 : Fin 2) = 0 ∧ win0_7.index t (0 : Fin 1) = 0
        ∧ win0_8.index t (0 : Fin 2) = 0 ∧ win0_8.index t (1 : Fin 2) = 0 ∧ win0_9.index t (0 : Fin 1) = 0)
    ∧ (win0_10.index t (0 : Fin 4) ≤ 1 ∧ win0_10.index t (1 : Fin 4) ≤ 7 ∧ win0_10.index t (2 : Fin 4) ≤ 3 ∧ win0_10.index t (3 : Fin 4) = 0) :=
  (by decide +kernel : ∀ t : Fin grid0.N, _)

/-- Every block of the result array is some grid point's. -/
theorem idx_onto : ∀ (q0 : Fin 2) (q1 : Fin 8) (q2 : Fin 4), ∃ t : Fin cfg0.N, win0_10.index t = ![q0.val, q1.val, q2.val, 0] :=
  (by decide +kernel : ∀ (q0 : Fin 2) (q1 : Fin 8) (q2 : Fin 4), ∃ t : Fin grid0.N, win0_10.index t = ![q0.val, q1.val, q2.val, 0])

/-! ## Block reads -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Row p of the receivers' block at t is row i0·64 + p of batch b of the feature array. -/
theorem read0 (c : Dev nD) (t : Fin cfg0.N) (p f : Fin 64) (b : Fin 2) (i : Fin 512)
    (hb : b.val = win0_10.index t (0 : Fin 4)) (hi : i.val = win0_10.index t (1 : Fin 4) * 64 + p.val) :
    iblk m c 0 t (ix3 (0 : Fin 1) p f) = m ((c : Thread nD τ).loc main_arg0) (ix3 b i f) := by
  obtain ⟨⟨e0, e1, e2⟩, -⟩ := idx_facts t
  rw [← V_main_arg0 m c]
  show V m c main_arg0 (((cfg0.win 0).blk t).view.emb (ix3 (0 : Fin 1) p f)) = _
  refine congrArg (V m c main_arg0) ?_
  funext a; apply Fin.ext
  match a with
  | ⟨0, _⟩ => show win0_0.index t (0 : Fin 3) * 1 + 1 * 0 = b.val; omega
  | ⟨1, _⟩ => show win0_0.index t (1 : Fin 3) * 64 + 1 * p.val = i.val; omega
  | ⟨2, _⟩ => show win0_0.index t (2 : Fin 3) * 64 + 1 * f.val = f.val; omega

/-- Row q of the senders' block at t is row j0·128 + q of batch b of the feature array. -/
theorem read1 (c : Dev nD) (t : Fin cfg0.N) (q : Fin 128) (f : Fin 64) (b : Fin 2) (j : Fin 512)
    (hb : b.val = win0_10.index t (0 : Fin 4)) (hj : j.val = win0_10.index t (2 : Fin 4) * 128 + q.val) :
    iblk m c 1 t (ix3 (0 : Fin 1) q f) = m ((c : Thread nD τ).loc main_arg0) (ix3 b j f) := by
  obtain ⟨-, ⟨e0, e1, e2⟩, -⟩ := idx_facts t
  rw [← V_main_arg0 m c]
  show V m c main_arg0 (((cfg0.win 1).blk t).view.emb (ix3 (0 : Fin 1) q f)) = _
  refine congrArg (V m c main_arg0) ?_
  funext a; apply Fin.ext
  match a with
  | ⟨0, _⟩ => show win0_1.index t (0 : Fin 3) * 1 + 1 * 0 = b.val; omega
  | ⟨1, _⟩ => show win0_1.index t (1 : Fin 3) * 128 + 1 * q.val = j.val; omega
  | ⟨2, _⟩ => show win0_1.index t (2 : Fin 3) * 64 + 1 * f.val = f.val; omega

/-- The edge block at t. -/
theorem read2 (c : Dev nD) (t : Fin cfg0.N) (p : Fin 64) (q : Fin 128) (f : Fin 64) (b : Fin 2) (i j : Fin 512)
    (hb : b.val = win0_10.index t (0 : Fin 4)) (hi : i.val = win0_10.index t (1 : Fin 4) * 64 + p.val)
    (hj : j.val = win0_10.index t (2 : Fin 4) * 128 + q.val) :
    iblk m c 2 t (ix4 (0 : Fin 1) p q f) = m ((c : Thread nD τ).loc main_arg1) (ix4 b i j f) := by
  obtain ⟨-, -, ⟨e0, e1, e2, e3⟩, -⟩ := idx_facts t
  rw [← V_main_arg1 m c]
  show V m c main_arg1 (((cfg0.win 2).blk t).view.emb (ix4 (0 : Fin 1) p q f)) = _
  refine congrArg (V m c main_arg1) ?_
  funext a; apply Fin.ext
  match a with
  | ⟨0, _⟩ => show win0_2.index t (0 : Fin 4) * 1 + 1 * 0 = b.val; omega
  | ⟨1, _⟩ => show win0_2.index t (1 : Fin 4) * 64 + 1 * p.val = i.val; omega
  | ⟨2, _⟩ => show win0_2.index t (2 : Fin 4) * 128 + 1 * q.val = j.val; omega
  | ⟨3, _⟩ => show win0_2.index t (3 : Fin 4) * 64 + 1 * f.val = f.val; omega

/-- The adjacency block at t. -/
theorem read3 (c : Dev nD) (t : Fin cfg0.N) (p : Fin 64) (q : Fin 128) (b : Fin 2) (i j : Fin 512)
    (hb : b.val = win0_10.index t (0 : Fin 4)) (hi : i.val = win0_10.index t (1 : Fin 4) * 64 + p.val)
    (hj : j.val = win0_10.index t (2 : Fin 4) * 128 + q.val) :
    iblk m c 3 t (ix3 (0 : Fin 1) p q) = m ((c : Thread nD τ).loc main_arg2) (ix3 b i j) := by
  obtain ⟨-, -, -, ⟨e0, e1, e2⟩, -⟩ := idx_facts t
  rw [← V_main_arg2 m c]
  show V m c main_arg2 (((cfg0.win 3).blk t).view.emb (ix3 (0 : Fin 1) p q)) = _
  refine congrArg (V m c main_arg2) ?_
  funext a; apply Fin.ext
  match a with
  | ⟨0, _⟩ => show win0_3.index t (0 : Fin 3) * 1 + 1 * 0 = b.val; omega
  | ⟨1, _⟩ => show win0_3.index t (1 : Fin 3) * 64 + 1 * p.val = i.val; omega
  | ⟨2, _⟩ => show win0_3.index t (2 : Fin 3) * 128 + 1 * q.val = j.val; omega

/-- A weight window's block is its whole array: rank 2. -/
theorem read4 (c : Dev nD) (t : Fin cfg0.N) (f e : Fin 64) : iblk m c 4 t (ix2 f e) = V m c main_v3 (ix2 f e) := by
  obtain ⟨-, -, -, -, ⟨e0, e1, -⟩, -⟩ := idx_facts t
  show V m c main_v3 (((cfg0.win 4).blk t).view.emb (ix2 f e)) = _
  refine congrArg (V m c main_v3) ?_
  funext a; apply Fin.ext
  match a with
  | ⟨0, _⟩ => show win0_4.index t (0 : Fin 2) * 64 + 1 * f.val = f.val; omega
  | ⟨1, _⟩ => show win0_4.index t (1 : Fin 2) * 64 + 1 * e.val = e.val; omega

theorem read5 (c : Dev nD) (t : Fin cfg0.N) (f e : Fin 64) : iblk m c 5 t (ix2 f e) = V m c main_v4 (ix2 f e) := by
  obtain ⟨-, -, -, -, ⟨-, -, e0, e1, -⟩, -⟩ := idx_facts t
  show V m c main_v4 (((cfg0.win 5).blk t).view.emb (ix2 f e)) = _
  refine congrArg (V m c main_v4) ?_
  funext a; apply Fin.ext
  match a with
  | ⟨0, _⟩ => show win0_5.index t (0 : Fin 2) * 64 + 1 * f.val = f.val; omega
  | ⟨1, _⟩ => show win0_5.index t (1 : Fin 2) * 64 + 1 * e.val = e.val; omega

theorem read6 (c : Dev nD) (t : Fin cfg0.N) (f : Fin 64) (g : Fin 256) : iblk m c 6 t (ix2 f g) = V m c main_v8 (ix2 f g) := by
  obtain ⟨-, -, -, -, ⟨-, -, -, -, e0, e1, -⟩, -⟩ := idx_facts t
  show V m c main_v8 (((cfg0.win 6).blk t).view.emb (ix2 f g)) = _
  refine congrArg (V m c main_v8) ?_
  funext a; apply Fin.ext
  match a with
  | ⟨0, _⟩ => show win0_6.index t (0 : Fin 2) * 64 + 1 * f.val = f.val; omega
  | ⟨1, _⟩ => show win0_6.index t (1 : Fin 2) * 256 + 1 * g.val = g.val; omega

theorem read7 (c : Dev nD) (t : Fin cfg0.N) (g : Fin 256) : iblk m c 7 t (ix1 g) = V m c main_v9 (ix1 g) := by
  obtain ⟨-, -, -, -, ⟨-, -, -, -, -, -, e0, -⟩, -⟩ := idx_facts t
  show V m c main_v9 (((cfg0.win 7).blk t).view.emb (ix1 g)) = _
  refine congrArg (V m c main_v9) ?_
  funext a; apply Fin.ext
  match a with
  | ⟨0, _⟩ => show win0_7.index t (0 : Fin 1) * 256 + 1 * g.val = g.val; omega

theorem read8 (c : Dev nD) (t : Fin cfg0.N) (f : Fin 64) (g : Fin 192) : iblk m c 8 t (ix2 f g) = V m c main_v7 (ix2 f g) := by
  obtain ⟨-, -, -, -, ⟨-, -, -, -, -, -, -, e0, e1, -⟩, -⟩ := idx_facts t
  show V m c main_v7 (((cfg0.win 8).blk t).view.emb (ix2 f g)) = _
  refine congrArg (V m c main_v7) ?_
  funext a; apply Fin.ext
  match a with
  | ⟨0, _⟩ => show win0_8.index t (0 : Fin 2) * 64 + 1 * f.val = f.val; omega
  | ⟨1, _⟩ => show win0_8.index t (1 : Fin 2) * 192 + 1 * g.val = g.val; omega

theorem read9 (c : Dev nD) (t : Fin cfg0.N) (g : Fin 192) : iblk m c 9 t (ix1 g) = m ((c : Thread nD τ).loc main_arg7) (ix1 g) := by
  obtain ⟨-, -, -, -, ⟨-, -, -, -, -, -, -, -, -, e0⟩, -⟩ := idx_facts t
  rw [← V_main_arg7 m c]
  show V m c main_arg7 (((cfg0.win 9).blk t).view.emb (ix1 g)) = _
  refine congrArg (V m c main_arg7) ?_
  funext a; apply Fin.ext
  match a with
  | ⟨0, _⟩ => show win0_9.index t (0 : Fin 1) * 192 + 1 * g.val = g.val; omega

/-! ## What a grid point writes back -/

/-- What point t writes back is block t of the specification's array. -/
theorem flushed_eq (hP : PayStmt) (c : Dev nD) (hW : WFacts m c) (t : Fin cfg0.N) :
    (dats m 0 c).flushed 10 t = ((cfg0.win 10).blk t).view.read (Elt Ideal) (GK m c) := by
  show (cfg0.win 10).cut (grid0.coords t) ((dats m 0 c).after 10 t) = _
  rw [after0_10]
  unfold out10
  rw [View.canon_unit_zero hz4]
  unfold pay10
  simp only [View.ld_unit_zero (S := S1x64x64) hz3, View.ld_unit_zero (S := S1x128x64) hz3, View.ld_unit_zero (S := S1x64x128x64) hz4,
    View.ld_unit_zero (S := S1x64x128) hz3, View.ld_unit_zero (S := S64x64) hz2, View.ld_unit_zero (S := S64x256) hz2,
    View.ld_unit_zero (S := S256) hz1, View.ld_unit_zero (S := S64x192) hz2, View.ld_unit_zero (S := S192) hz1]
  funext y
  obtain ⟨p, q, e, rfl⟩ : ∃ (p : Fin 64) (q : Fin 128) (e : Fin 64), y = ix4 (0 : Fin 1) p q e :=
    ⟨y 1, y 2, y 3, by
      have h0 : (y 0).val < 1 := (y 0).isLt
      rw [eq_ix4 y]; congr 1; exact Fin.ext (by show (y 0).val = 0; omega)⟩
  obtain ⟨-, -, -, -, -, ⟨b0, b1, b2, b3⟩⟩ := idx_facts t
  have hp : p.val < 64 := p.isLt
  have hq : q.val < 128 := q.isLt
  obtain ⟨b, hb⟩ : ∃ b : Fin 2, b.val = win0_10.index t (0 : Fin 4) := ⟨⟨win0_10.index t (0 : Fin 4), by omega⟩, rfl⟩
  obtain ⟨i, hi⟩ : ∃ i : Fin 512, i.val = win0_10.index t (1 : Fin 4) * 64 + p.val := ⟨⟨win0_10.index t (1 : Fin 4) * 64 + p.val, by omega⟩, rfl⟩
  obtain ⟨j, hj⟩ : ∃ j : Fin 512, j.val = win0_10.index t (2 : Fin 4) * 128 + q.val := ⟨⟨win0_10.index t (2 : Fin 4) * 128 + q.val, by omega⟩, rfl⟩
  have hemb : ((cfg0.win 10).blk t).view.emb (ix4 (0 : Fin 1) p q e) = ix4 b i j e := by
    funext a; apply Fin.ext
    match a with
    | ⟨0, _⟩ => show win0_10.index t (0 : Fin 4) * 1 + 1 * 0 = b.val; omega
    | ⟨1, _⟩ => show win0_10.index t (1 : Fin 4) * 64 + 1 * p.val = i.val; omega
    | ⟨2, _⟩ => show win0_10.index t (2 : Fin 4) * 128 + 1 * q.val = j.val; omega
    | ⟨3, _⟩ => show win0_10.index t (3 : Fin 4) * 64 + 1 * e.val = e.val; omega
  show k0_pay1 (F := Ideal) (k0_pay2 (iblk m c 2 t)) (k0_pay4 (iblk m c 2 t) (iblk m c 6 t) (iblk m c 7 t)) (k0_pay5 (iblk m c 2 t) (iblk m c 6 t) (iblk m c 7 t))
      (k0_pay6 (iblk m c 0 t) (iblk m c 1 t) (iblk m c 2 t) (iblk m c 5 t) (iblk m c 4 t) (iblk m c 6 t) (iblk m c 7 t)) (k0_pay7 (iblk m c 3 t))
      (iblk m c 8 t) (iblk m c 9 t) (ix4 (0 : Fin 1) p q e)
    = GK m c (((cfg0.win 10).blk t).view.emb (ix4 (0 : Fin 1) p q e))
  rw [hemb]
  refine (hP (iblk m c 0 t) (iblk m c 1 t) (iblk m c 2 t) (iblk m c 3 t) (iblk m c 4 t) (iblk m c 5 t) (iblk m c 6 t) (iblk m c 7 t) (iblk m c 8 t) (iblk m c 9 t)
    (fun o k => m ((c : Thread nD τ).loc main_arg3) (ix2 o k)) (fun o => m ((c : Thread nD τ).loc main_arg4) (ix1 o))
    (fun g f => m ((c : Thread nD τ).loc main_arg5) (ix2 g f)) (fun g f => m ((c : Thread nD τ).loc main_arg6) (ix2 g f))
    (fun g => m ((c : Thread nD τ).loc main_arg7) (ix1 g)) (fun g => m ((c : Thread nD τ).loc main_arg8) (ix1 g))
    (fun f e => (read4 m c t f e).trans (hW.v3 f e))
    (fun f e => (read5 m c t f e).trans (hW.v4 f e))
    (fun f e => (read6 m c t f _).trans (hW.v8lo f e))
    (fun f g => (read6 m c t f _).trans (hW.v8hi f g))
    (fun e => (read7 m c t _).trans (hW.v9lo e))
    (fun g => (read7 m c t _).trans (hW.v9hi g))
    (fun f g => (read8 m c t f g).trans (hW.v7 f g))
    (fun g => read9 m c t g)
    p q e).trans ?_
  refine Eq.trans ?_ (G_apply _ _ _ _ _ _ _ _ _ b i j e).symm
  unfold Gat
  have r0 : ∀ f : Fin 64, iblk m c 0 t (ix3 (0 : Fin 1) p f) = m ((c : Thread nD τ).loc main_arg0) (ix3 b i f) := fun f => read0 m c t p f b i hb hi
  have r1 : ∀ f : Fin 64, iblk m c 1 t (ix3 (0 : Fin 1) q f) = m ((c : Thread nD τ).loc main_arg0) (ix3 b j f) := fun f => read1 m c t q f b j hb hj
  have r2 : ∀ f : Fin 64, iblk m c 2 t (ix4 (0 : Fin 1) p q f) = m ((c : Thread nD τ).loc main_arg1) (ix4 b i j f) := fun f => read2 m c t p q f b i j hb hi hj
  have r3 : iblk m c 3 t (ix3 (0 : Fin 1) p q) = m ((c : Thread nD τ).loc main_arg2) (ix3 b i j) := read3 m c t p q b i j hb hi hj
  simp only [r0, r1, r2, r3]

/-! ## The blocks tile the array -/

/-- An index of the result array is in point t's block iff each coordinate is in the block's range on its axis. -/
theorem mem_blk (t : Fin cfg0.N) (i : S2x512x512x64.Idx) :
    i ∈ ((cfg0.win 10).blk t).view.set ↔ ∀ a : Fin 4, win0_10.index t a * S1x64x128x64.size a ≤ (i a).val ∧ (i a).val < win0_10.index t a * S1x64x128x64.size a + S1x64x128x64.size a := by
  show i ∈ ((View.whole main_v10).slice (win0_10.rect t)).set ↔ _
  rw [View.set_slice_whole, Rect.mem_set_unit]
  exact Iff.rfl

/-- Every index of the result array is in the block of the point of its batch, its row tile and its column tile. -/
theorem cover (i : S2x512x512x64.Idx) : ∃ t : Fin cfg0.N, (cfg0.win 10).flush t = true ∧ i ∈ ((cfg0.win 10).blk t).view.set := by
  have h0 : (i 0).val < 2 := (i 0).isLt
  have h1 : (i 1).val < 512 := (i 1).isLt
  have h2 : (i 2).val < 512 := (i 2).isLt
  have h3 : (i 3).val < 64 := (i 3).isLt
  obtain ⟨t, ht⟩ := idx_onto ⟨(i 0).val, h0⟩ ⟨(i 1).val / 64, by omega⟩ ⟨(i 2).val / 128, by omega⟩
  have q0 : win0_10.index t (0 : Fin 4) = (i 0).val := congrFun ht 0
  have q1 : win0_10.index t (1 : Fin 4) = (i 1).val / 64 := congrFun ht 1
  have q2 : win0_10.index t (2 : Fin 4) = (i 2).val / 128 := congrFun ht 2
  have q3 : win0_10.index t (3 : Fin 4) = 0 := congrFun ht 3
  refine ⟨t, flush0_10 t, ?_⟩
  rw [mem_blk]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 64 ≤ (i 1).val ∧ (i 1).val < win0_10.index t (1 : Fin 4) * 64 + 64; omega
  | ⟨2, _⟩ => show win0_10.index t (2 : Fin 4) * 128 ≤ (i 2).val ∧ (i 2).val < win0_10.index t (2 : Fin 4) * 128 + 128; omega
  | ⟨3, _⟩ => show win0_10.index t (3 : Fin 4) * 64 ≤ (i 3).val ∧ (i 3).val < win0_10.index t (3 : Fin 4) * 64 + 64; omega

/-! ## The array after the run -/

/-- The result array ends holding the specification's array of the launch contents. -/
theorem final10 (hP : PayStmt) (c : Dev nD) (hW : WFacts m c) : (dats m 0 c).arrAt 10 cfg0.N = GK m c :=
  (dats m 0 c).arrAt_eq_of_cover 10 (GK m c) (fun t _ => flushed_eq m hP c hW t) cover

/-- The kernel's run: it ends with the result array at the specification and the argument arrays unchanged. -/
theorem run (hP : PayStmt) (hW : ∀ c, WFacts m c) :
    θ_run defs (onTc (τ := τ) (main (F := Ideal))) ⟨m, fun _ => 0, ρ⟩ fun r => ∀ c : Dev nD,
      r.2.mem ((c.tc : Thread nD τ).loc main_v10) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(post10 m r h c).trans (final10 m hP c (hW c)), kept m r h c⟩) (run_main m ρ)

end Cert.MsgGru.Value

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.PayloadLayout.lean ====
/-
  Layout operations of the kernel body read at explicit coordinates.

  The body flattens the edge block [64, 128, 64] to the rows of an [8192, 64] matrix and back: cell (p, q) is
  row p * 128 + q. Here are that pair of casts, the casts that add a unit axis in the middle or at the end, the three
  broadcasts into [64, 128, 64] (along the last axis, along the middle axis, along the first axis), and a plain
  matrix product into a zero accumulator as the sum over the contracted coordinate.
-/
import proofs.«128466_j5884105196042_2_alg».proof.Proof.Gen.KernelIdeal.Skeleton
import proofs.«128466_j5884105196042_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.MsgGru.Body

open Idealize.ShloMosaic Idealize.ShloMosaic.ValueIdx Cert.KernelIdeal

/-- The row of the flattened matrices that holds cell (p, q): p * 128 + q. -/
def row (p : Fin 64) (q : Fin 128) : Fin 8192 := ⟨p.val * 128 + q.val, by omega⟩

variable {α : Type}

/-- [64, 128, 64] flattened to [8192, 64]: row p * 128 + q, column e, is entry (p, q, e). -/
theorem flatten_apply (x : S64x128x64.Idx → α) (h : S64x128x64.ShapeCasts S8192x64) (p : Fin 64) (q : Fin 128) (e : Fin 64) :
    shapeCast S8192x64 x h (ix2 (row p q) e) = x (ix3 p q e) :=
  shapeCast_apply x h _ _ (by
    rw [Shape.rowMajor_val_three, Shape.rowMajor_val_two]
    rfl)

/-- [8192, 64] cut back into [64, 128, 64]: entry (p, q, e) is row p * 128 + q, column e. -/
theorem unflatten_apply (x : S8192x64.Idx → α) (h : S8192x64.ShapeCasts S64x128x64) (p : Fin 64) (q : Fin 128) (e : Fin 64) :
    shapeCast S64x128x64 x h (ix3 p q e) = x (ix2 (row p q) e) :=
  shapeCast_apply x h _ _ (by
    rw [Shape.rowMajor_val_three, Shape.rowMajor_val_two]
    rfl)

/-- [64, 64] with a unit axis put in the middle: entry (p, 0, e) is entry (p, e). -/
theorem mid_unit_apply (x : S64x64.Idx → α) (h : S64x64.ShapeCasts S64x1x64) (p : Fin 64) (e : Fin 64) :
    shapeCast S64x1x64 x h (ix3 p (0 : Fin 1) e) = x (ix2 p e) :=
  shapeCast_apply x h _ _ (by
    rw [Shape.rowMajor_val_three, Shape.rowMajor_val_two]
    show p.val * 64 + e.val = (p.val * 1 + 0) * 64 + e.val
    omega)

/-- [64, 128] with a unit axis put at the end: entry (p, q, 0) is entry (p, q). -/
theorem last_unit_apply (x : S64x128.Idx → α) (h : S64x128.ShapeCasts S64x128x1) (p : Fin 64) (q : Fin 128) :
    shapeCast S64x128x1 x h (ix3 p q (0 : Fin 1)) = x (ix2 p q) :=
  shapeCast_apply x h _ _ (by
    rw [Shape.rowMajor_val_three, Shape.rowMajor_val_two]
    show p.val * 128 + q.val = (p.val * 128 + q.val) * 1 + 0
    omega)

/-- [64, 128, 1] broadcast along the last axis: entry (p, q, e) is entry (p, q, 0). -/
theorem bcast_last_apply (x : S64x128x1.Idx → α) (h : S64x128x1.Broadcasts S64x128x64) (p : Fin 64) (q : Fin 128) (e : Fin 64) :
    broadcastTo S64x128x64 x h (ix3 p q e) = x (ix3 p q (0 : Fin 1)) :=
  broadcastTo_apply x h _ _ fun a => by
    match a with
    | ⟨0, _⟩ => show p.val = if (64 : ℕ) = 1 then 0 else p.val; rw [if_neg (by decide)]
    | ⟨1, _⟩ => show q.val = if (128 : ℕ) = 1 then 0 else q.val; rw [if_neg (by decide)]
    | ⟨2, _⟩ => show (0 : ℕ) = if (1 : ℕ) = 1 then 0 else e.val; rw [if_pos rfl]

/-- [64, 1, 64] broadcast along the middle axis: entry (p, q, e) is entry (p, 0, e). -/
theorem bcast_mid_apply (x : S64x1x64.Idx → α) (h : S64x1x64.Broadcasts S64x128x64) (p : Fin 64) (q : Fin 128) (e : Fin 64) :
    broadcastTo S64x128x64 x h (ix3 p q e) = x (ix3 p (0 : Fin 1) e) :=
  broadcastTo_apply x h _ _ fun a => by
    match a with
    | ⟨0, _⟩ => show p.val = if (64 : ℕ) = 1 then 0 else p.val; rw [if_neg (by decide)]
    | ⟨1, _⟩ => show (0 : ℕ) = if (1 : ℕ) = 1 then 0 else q.val; rw [if_pos rfl]
    | ⟨2, _⟩ => show e.val = if (64 : ℕ) = 1 then 0 else e.val; rw [if_neg (by decide)]

/-- [1, 128, 64] broadcast along the first axis: entry (p, q, e) is entry (0, q, e). -/
theorem bcast_lead_apply (x : S1x128x64.Idx → α) (h : S1x128x64.Broadcasts S64x128x64) (p : Fin 64) (q : Fin 128) (e : Fin 64) :
    broadcastTo S64x128x64 x h (ix3 p q e) = x (ix3 (0 : Fin 1) q e) :=
  broadcastTo_apply x h _ _ fun a => by
    match a with
    | ⟨0, _⟩ => show (0 : ℕ) = if (1 : ℕ) = 1 then 0 else p.val; rw [if_pos rfl]
    | ⟨1, _⟩ => show q.val = if (128 : ℕ) = 1 then 0 else q.val; rw [if_neg (by decide)]
    | ⟨2, _⟩ => show e.val = if (64 : ℕ) = 1 then 0 else e.val; rw [if_neg (by decide)]

/-- A plain M x K by K x N product into a zero accumulator, at (a, b): the sum over f of l (a, f) * r (f, b). -/
theorem mm_apply {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (a : Fin M) (b : Fin N) :
    matmul (F := Ideal) d none l r (constant ⟨2, ![M, N]⟩ .f32 0x00000000#32) (ix2 a b)
      = ∑ f : Fin K, l (ix2 a f) * r (ix2 f b) := by
  subst hd
  exact Cert.Lib.PlainDot.matmul_zero_apply M K N none l r (ix2 a b)

end Cert.MsgGru.Body

end
-- ==== Proof.PayloadBlocks.lean ====
/-
  The values the first part of the kernel body hands on, read at explicit coordinates.

  With ed the edge row of cell (p, q): the flattened edge block; the edge projection ed . W + b over the 256 columns
  that hold the middle block of the linear weight beside the hidden-gate weight (and its slices); the three-term sum
  of the receiver's projection (row p), the edge projection and the sender's projection (row q); the adjacency block
  with its trailing unit axis.
-/
import proofs.«128466_j5884105196042_2_alg».proof.Proof.PayloadLayout

noncomputable section

namespace Cert.MsgGru.Body

open Idealize.ShloMosaic Idealize.ShloMosaic.ValueIdx Cert.KernelIdeal Cert.KernelIdeal.Gen

/-- The flattened edge block: row p * 128 + q, column e, is the edge entry (0, p, q, e). -/
theorem pay2_apply (x2 : Vec Ideal S1x64x128x64 .f32) (p : Fin 64) (q : Fin 128) (e : Fin 64) :
    k0_pay2 (F := Ideal) x2 (ix2 (row p q) e) = x2 (ix4 (0 : Fin 1) p q e) := by
  unfold k0_pay2
  exact (flatten_apply _ _ p q e).trans (shapeCast_1abc_abc_apply x2 _ p q e)

/-- The edge projection: row p * 128 + q, column c, is (sum over f of edge (0, p, q, f) * x6 (f, c)) + x7 c. -/
theorem pay3_apply (x2 : Vec Ideal S1x64x128x64 .f32) (x6 : Vec Ideal S64x256 .f32) (x7 : Vec Ideal S256 .f32)
    (p : Fin 64) (q : Fin 128) (c : Fin 256) :
    k0_pay3 (F := Ideal) x2 x6 x7 (ix2 (row p q) c)
      = (∑ f : Fin 64, x2 (ix4 (0 : Fin 1) p q f) * x6 (ix2 f c)) + x7 (ix1 c) := by
  unfold k0_pay3
  refine (addf_apply _ _ _).trans ?_
  refine congrArg₂ (· + ·) ?_ ?_
  · refine (mm_apply _ rfl _ _ (row p q) c).trans ?_
    refine Finset.sum_congr rfl fun f _ => ?_
    rw [pay2_apply, shapeCast_self]
  · refine (broadcastTo_1b_ab_apply _ _ _ _).trans ?_
    refine (shapeCast_a_1a_apply _ _ _ _).trans ?_
    rw [shapeCast_self]

/-- Columns 64 … 191 of the edge projection. -/
theorem pay4_apply (x2 : Vec Ideal S1x64x128x64 .f32) (x6 : Vec Ideal S64x256 .f32) (x7 : Vec Ideal S256 .f32)
    (p : Fin 64) (q : Fin 128) (g : Fin 128) :
    k0_pay4 (F := Ideal) x2 x6 x7 (ix2 (row p q) g)
      = (∑ f : Fin 64, x2 (ix4 (0 : Fin 1) p q f) * x6 (ix2 f (⟨64 + g.val, by omega⟩ : Fin 256)))
          + x7 (ix1 (⟨64 + g.val, by omega⟩ : Fin 256)) := by
  unfold k0_pay4
  exact (slice2_axis1_apply 64 _ _ (row p q) g ⟨64 + g.val, by omega⟩ rfl).trans (pay3_apply x2 x6 x7 p q _)

/-- Columns 192 … 255 of the edge projection, the column written 64 + (128 + e). -/
theorem pay5_apply (x2 : Vec Ideal S1x64x128x64 .f32) (x6 : Vec Ideal S64x256 .f32) (x7 : Vec Ideal S256 .f32)
    (p : Fin 64) (q : Fin 128) (e : Fin 64) :
    k0_pay5 (F := Ideal) x2 x6 x7 (ix2 (row p q) e)
      = (∑ f : Fin 64, x2 (ix4 (0 : Fin 1) p q f) * x6 (ix2 f (⟨64 + (128 + e.val), by omega⟩ : Fin 256)))
          + x7 (ix1 (⟨64 + (128 + e.val), by omega⟩ : Fin 256)) := by
  unfold k0_pay5
  exact (slice2_axis1_apply 192 _ _ (row p q) e ⟨64 + (128 + e.val), by omega⟩ (by show 64 + (128 + e.val) = 192 + e.val; omega)).trans
    (pay3_apply x2 x6 x7 p q _)

/-- The three-term sum at cell (p, q), feature e: the receiver's projection of row p, plus the edge projection's
    column e, plus the sender's projection of row q. -/
theorem pay6_apply (v0 : Vec Ideal S1x64x64 .f32) (v2 : Vec Ideal S1x128x64 .f32) (v4 : Vec Ideal S1x64x128x64 .f32)
    (v8 v11 : Vec Ideal S64x64 .f32) (v15 : Vec Ideal S64x256 .f32) (v18 : Vec Ideal S256 .f32)
    (p : Fin 64) (q : Fin 128) (e : Fin 64) :
    k0_pay6 (F := Ideal) v0 v2 v4 v8 v11 v15 v18 (ix3 p q e)
      = ((∑ f : Fin 64, v0 (ix3 (0 : Fin 1) p f) * v8 (ix2 f e))
          + ((∑ f : Fin 64, v4 (ix4 (0 : Fin 1) p q f) * v15 (ix2 f (⟨e.val, by omega⟩ : Fin 256)))
              + v18 (ix1 (⟨e.val, by omega⟩ : Fin 256))))
        + (∑ f : Fin 64, v2 (ix3 (0 : Fin 1) q f) * v11 (ix2 f e)) := by
  unfold k0_pay6
  refine (addf_apply _ _ _).trans ?_
  refine congrArg₂ (· + ·) ?_ ?_
  · refine (addf_apply _ _ _).trans ?_
    refine congrArg₂ (· + ·) ?_ ?_
    · refine (bcast_mid_apply _ _ p q e).trans ?_
      refine (mid_unit_apply _ _ p e).trans ?_
      refine (mm_apply _ rfl _ _ p e).trans ?_
      refine Finset.sum_congr rfl fun f _ => ?_
      rw [shapeCast_self, shapeCast_1ab_ab_apply]
    · refine (unflatten_apply _ _ p q e).trans ?_
      refine (slice2_axis1_apply 0 _ _ (row p q) e ⟨e.val, by omega⟩ (by show e.val = 0 + e.val; omega)).trans ?_
      exact pay3_apply v4 v15 v18 p q _
  · refine (bcast_lead_apply _ _ p q e).trans ?_
    refine (shapeCast_ab_1ab_apply _ _ (0 : Fin 1) q e).trans ?_
    refine (mm_apply _ rfl _ _ q e).trans ?_
    refine Finset.sum_congr rfl fun f _ => ?_
    rw [shapeCast_self, shapeCast_1ab_ab_apply]

/-- The adjacency block with its trailing unit axis: entry (p, q, 0) is the adjacency entry (0, p, q). -/
theorem pay7_apply (x3 : Vec Ideal S1x64x128 .f32) (p : Fin 64) (q : Fin 128) :
    k0_pay7 (F := Ideal) x3 (ix3 p q (0 : Fin 1)) = x3 (ix3 (0 : Fin 1) p q) := by
  unfold k0_pay7
  exact (last_unit_apply _ _ p q).trans (shapeCast_1ab_ab_apply x3 _ p q)

end Cert.MsgGru.Body

end
-- ==== Proof.PayloadCell.lean ====
/-
  The second part of the kernel body, the gated update of one cell, read at explicit coordinates.

  The stored block is cut into four stages: the masked message flattened to rows; its projection by the input-gate
  weight plus the input-gate bias (192 columns); the two sigmoid gates, taken together over 128 columns; and the new
  hidden value (1 - z) * n + z * ed. The stored value is the new hidden value times its sigmoid, cut back into
  [1, 64, 128, 64]. Each stage is read at row p * 128 + q.
-/
import proofs.«128466_j5884105196042_2_alg».proof.Proof.PayloadLayout
import proofs.«128466_j5884105196042_2_alg».proof.Proof.Spec

noncomputable section

namespace Cert.MsgGru.Body

open Idealize.ShloMosaic Idealize.ShloMosaic.ValueIdx Cert.KernelIdeal Cert.KernelIdeal.Gen Cert.MsgGru

/-- The message masked by the adjacency entry, flattened to rows. -/
def msgV (v32 : FVec Ideal S64x128x64 .f32) (v33 : FVec Ideal S64x128x1 .f32) : FVec Ideal S8192x64 .f32 :=
  shapeCast S8192x64 (mulf v32 (broadcastTo S64x128x64 v33 broadcasts_S64x128x1_S64x128x64)) shapeCasts_S64x128x64_S8192x64

/-- The input-gate projection of the masked message, with its bias: 192 columns. -/
def giV (v32 : FVec Ideal S64x128x64 .f32) (v33 : FVec Ideal S64x128x1 .f32) (v37 : FVec Ideal S64x192 .f32)
    (v40 : FVec Ideal S192 .f32) : FVec Ideal S8192x192 .f32 :=
  addf (matmul (φ₁ := .f32) (φ₂ := .f32) dot_S8192x64_S64x192_S8192x192_1_0_0_1_n_n none (msgV v32 v33) (shapeCast S64x192 v37 shapeCasts_S64x192_S64x192)
      (constant S8192x192 .f32 0x00000000#32))
    (broadcastTo S8192x192 (shapeCast S1x192 v40 shapeCasts_S192_S1x192) broadcasts_S1x192_S8192x192)

/-- The reset and update gates side by side: the sigmoid of the first 128 input-gate columns plus the hidden-gate ones. -/
def rzV (v25 : FVec Ideal S8192x128 .f32) (v32 : FVec Ideal S64x128x64 .f32) (v33 : FVec Ideal S64x128x1 .f32)
    (v37 : FVec Ideal S64x192 .f32) (v40 : FVec Ideal S192 .f32) : FVec Ideal S8192x128 .f32 :=
  logistic (addf (extractStridedSlice S8192x128 ![0, 0] (giV v32 v33 v37 v40) slices_S8192x192_o0_0_S8192x128) v25)

/-- The new hidden value (1 - z) * n + z * ed. -/
def nhV (v14 : FVec Ideal S8192x64 .f32) (v25 : FVec Ideal S8192x128 .f32) (v26 : FVec Ideal S8192x64 .f32)
    (v32 : FVec Ideal S64x128x64 .f32) (v33 : FVec Ideal S64x128x1 .f32) (v37 : FVec Ideal S64x192 .f32)
    (v40 : FVec Ideal S192 .f32) : FVec Ideal S8192x64 .f32 :=
  addf
    (mulf
      (subf (broadcast S8192x64 (Scalar.ofBits (F := Ideal) .f32 0x3F800000#32))
        (extractStridedSlice S8192x64 ![0, 64] (rzV v25 v32 v33 v37 v40) slices_S8192x128_o0_64_S8192x64))
      (tanh (addf (extractStridedSlice S8192x64 ![0, 128] (giV v32 v33 v37 v40) slices_S8192x192_o0_128_S8192x64)
        (mulf (extractStridedSlice S8192x64 ![0, 0] (rzV v25 v32 v33 v37 v40) slices_S8192x128_o0_0_S8192x64) v26))))
    (mulf (extractStridedSlice S8192x64 ![0, 64] (rzV v25 v32 v33 v37 v40) slices_S8192x128_o0_64_S8192x64) v14)

/-- The stored block is the new hidden value times its sigmoid, cut back into [1, 64, 128, 64]. -/
theorem pay1_eq (v14 : FVec Ideal S8192x64 .f32) (v25 : FVec Ideal S8192x128 .f32) (v26 : FVec Ideal S8192x64 .f32)
    (v32 : FVec Ideal S64x128x64 .f32) (v33 : FVec Ideal S64x128x1 .f32) (v37 : FVec Ideal S64x192 .f32)
    (v40 : FVec Ideal S192 .f32) :
    k0_pay1 (F := Ideal) v14 v25 v26 v32 v33 v37 v40
      = shapeCast S1x64x128x64
          (shapeCast S64x128x64 (mulf (nhV v14 v25 v26 v32 v33 v37 v40) (logistic (nhV v14 v25 v26 v32 v33 v37 v40)))
            shapeCasts_S8192x64_S64x128x64)
          shapeCasts_S64x128x64_S1x64x128x64 := rfl

/-- The masked message at row p * 128 + q, feature f. -/
theorem msgV_apply (v32 : FVec Ideal S64x128x64 .f32) (v33 : FVec Ideal S64x128x1 .f32) (p : Fin 64) (q : Fin 128) (f : Fin 64) :
    msgV v32 v33 (ix2 (row p q) f) = v32 (ix3 p q f) * v33 (ix3 p q (0 : Fin 1)) := by
  unfold msgV
  refine (flatten_apply _ _ p q f).trans ?_
  refine (mulf_apply _ _ _).trans ?_
  exact congrArg (v32 (ix3 p q f) * ·) (bcast_last_apply v33 _ p q f)

/-- The input-gate projection at row p * 128 + q, column c. -/
theorem giV_apply (v32 : FVec Ideal S64x128x64 .f32) (v33 : FVec Ideal S64x128x1 .f32) (v37 : FVec Ideal S64x192 .f32)
    (v40 : FVec Ideal S192 .f32) (p : Fin 64) (q : Fin 128) (c : Fin 192) :
    giV v32 v33 v37 v40 (ix2 (row p q) c)
      = (∑ f : Fin 64, (v32 (ix3 p q f) * v33 (ix3 p q (0 : Fin 1))) * v37 (ix2 f c)) + v40 (ix1 c) := by
  unfold giV
  refine (addf_apply _ _ _).trans ?_
  refine congrArg₂ (· + ·) ?_ ?_
  · refine (mm_apply _ rfl _ _ (row p q) c).trans ?_
    refine Finset.sum_congr rfl fun f _ => ?_
    rw [msgV_apply, shapeCast_self]
  · refine (broadcastTo_1b_ab_apply _ _ _ _).trans ?_
    exact shapeCast_a_1a_apply _ _ _ _

/-- The two gates at row p * 128 + q, column g of 128: the sigmoid of input-gate column g plus hidden-gate column g. -/
theorem rzV_apply (v25 : FVec Ideal S8192x128 .f32) (v32 : FVec Ideal S64x128x64 .f32) (v33 : FVec Ideal S64x128x1 .f32)
    (v37 : FVec Ideal S64x192 .f32) (v40 : FVec Ideal S192 .f32) (p : Fin 64) (q : Fin 128) (g : Fin 128) (c : Fin 192)
    (hc : c.val = g.val) :
    rzV v25 v32 v33 v37 v40 (ix2 (row p q) g)
      = Ideal.logistic (giV v32 v33 v37 v40 (ix2 (row p q) c) + v25 (ix2 (row p q) g)) := by
  unfold rzV
  show Ideal.logistic (extractStridedSlice S8192x128 ![0, 0] (giV v32 v33 v37 v40) slices_S8192x192_o0_0_S8192x128 (ix2 (row p q) g)
      + v25 (ix2 (row p q) g)) = _
  rw [slice2_axis1_apply 0 (giV v32 v33 v37 v40) _ (row p q) g c (by omega)]

/-- The new hidden value at row p * 128 + q, feature e. -/
theorem nhV_apply (v14 : FVec Ideal S8192x64 .f32) (v25 : FVec Ideal S8192x128 .f32) (v26 : FVec Ideal S8192x64 .f32)
    (v32 : FVec Ideal S64x128x64 .f32) (v33 : FVec Ideal S64x128x1 .f32) (v37 : FVec Ideal S64x192 .f32)
    (v40 : FVec Ideal S192 .f32) (p : Fin 64) (q : Fin 128) (e : Fin 64) :
    nhV v14 v25 v26 v32 v33 v37 v40 (ix2 (row p q) e)
      = (oneW - Ideal.logistic (giV v32 v33 v37 v40 (ix2 (row p q) (c1 e)) + v25 (ix2 (row p q) (⟨64 + e.val, by omega⟩ : Fin 128))))
          * Ideal.tanh (giV v32 v33 v37 v40 (ix2 (row p q) (c2 e))
              + Ideal.logistic (giV v32 v33 v37 v40 (ix2 (row p q) (c0 e)) + v25 (ix2 (row p q) (⟨e.val, by omega⟩ : Fin 128)))
                * v26 (ix2 (row p q) e))
        + Ideal.logistic (giV v32 v33 v37 v40 (ix2 (row p q) (c1 e)) + v25 (ix2 (row p q) (⟨64 + e.val, by omega⟩ : Fin 128)))
          * v14 (ix2 (row p q) e) := by
  have hz : extractStridedSlice S8192x64 ![0, 64] (rzV v25 v32 v33 v37 v40) slices_S8192x128_o0_64_S8192x64 (ix2 (row p q) e)
      = Ideal.logistic (giV v32 v33 v37 v40 (ix2 (row p q) (c1 e)) + v25 (ix2 (row p q) (⟨64 + e.val, by omega⟩ : Fin 128))) :=
    (slice2_axis1_apply 64 _ _ (row p q) e ⟨64 + e.val, by omega⟩ rfl).trans
      (rzV_apply v25 v32 v33 v37 v40 p q _ (c1 e) rfl)
  have hr : extractStridedSlice S8192x64 ![0, 0] (rzV v25 v32 v33 v37 v40) slices_S8192x128_o0_0_S8192x64 (ix2 (row p q) e)
      = Ideal.logistic (giV v32 v33 v37 v40 (ix2 (row p q) (c0 e)) + v25 (ix2 (row p q) (⟨e.val, by omega⟩ : Fin 128))) :=
    (slice2_axis1_apply 0 _ _ (row p q) e ⟨e.val, by omega⟩ (by show e.val = 0 + e.val; omega)).trans
      (rzV_apply v25 v32 v33 v37 v40 p q _ (c0 e) rfl)
  have hn : extractStridedSlice S8192x64 ![0, 128] (giV v32 v33 v37 v40) slices_S8192x192_o0_128_S8192x64 (ix2 (row p q) e)
      = giV v32 v33 v37 v40 (ix2 (row p q) (c2 e)) :=
    slice2_axis1_apply 128 _ _ (row p q) e (c2 e) rfl
  unfold nhV
  show (oneW - extractStridedSlice S8192x64 ![0, 64] (rzV v25 v32 v33 v37 v40) slices_S8192x128_o0_64_S8192x64 (ix2 (row p q) e))
        * Ideal.tanh (extractStridedSlice S8192x64 ![0, 128] (giV v32 v33 v37 v40) slices_S8192x192_o0_128_S8192x64 (ix2 (row p q) e)
            + extractStridedSlice S8192x64 ![0, 0] (rzV v25 v32 v33 v37 v40) slices_S8192x128_o0_0_S8192x64 (ix2 (row p q) e)
              * v26 (ix2 (row p q) e))
      + extractStridedSlice S8192x64 ![0, 64] (rzV v25 v32 v33 v37 v40) slices_S8192x128_o0_64_S8192x64 (ix2 (row p q) e)
        * v14 (ix2 (row p q) e) = _
  rw [hz, hr, hn]

/-- The stored entry (0, p, q, e): the new hidden value at row p * 128 + q, feature e, times its sigmoid. -/
theorem pay1_apply (v14 : FVec Ideal S8192x64 .f32) (v25 : FVec Ideal S8192x128 .f32) (v26 : FVec Ideal S8192x64 .f32)
    (v32 : FVec Ideal S64x128x64 .f32) (v33 : FVec Ideal S64x128x1 .f32) (v37 : FVec Ideal S64x192 .f32)
    (v40 : FVec Ideal S192 .f32) (p : Fin 64) (q : Fin 128) (e : Fin 64) :
    k0_pay1 (F := Ideal) v14 v25 v26 v32 v33 v37 v40 (ix4 (0 : Fin 1) p q e)
      = nhV v14 v25 v26 v32 v33 v37 v40 (ix2 (row p q) e) * Ideal.logistic (nhV v14 v25 v26 v32 v33 v37 v40 (ix2 (row p q) e)) := by
  rw [pay1_eq]
  refine (shapeCast_abc_1abc_apply _ _ (0 : Fin 1) p q e).trans ?_
  exact unflatten_apply _ _ p q e

end Cert.MsgGru.Body

end
-- ==== Proof.Payload.lean ====
/-
  What the kernel body stores at one entry of its output block is the specification's cell of the rows
  the entry depends on.

  The stored entry is nh * sigmoid nh with nh the new hidden value of the cell. Its input-gate row is the gate
  projection of the masked message: the body adds the three projections as (receiver + (edge + bias)) + sender, the
  specification as ((sender + edge) + receiver) + bias, equal by commutativity and associativity of the sum. Its
  hidden-gate row is the edge projection's columns 64 … 255, where the block x6 / x7 holds the hidden-gate weight and
  bias. The sigmoid is the logistic function.
-/
import proofs.«128466_j5884105196042_2_alg».proof.Proof.Gen.KernelIdeal.Skeleton
import proofs.«128466_j5884105196042_2_alg».proof.Proof.Spec
import proofs.«128466_j5884105196042_2_alg».proof.Proof.PayloadBlocks
import proofs.«128466_j5884105196042_2_alg».proof.Proof.PayloadCell
import Idealize.ShloMosaic.Lib.Pipeline.Value
import Idealize.ShloMosaic.Lib.ValueIdx
import Idealize.ShloMosaic.Lib.ValueLayout
import Idealize.ShloMosaic.PureOps.Ideal.Laws

noncomputable section

namespace Cert.MsgGru.Body

open Idealize.ShloMosaic Idealize.ShloMosaic.ValueIdx Cert.KernelIdeal Cert.KernelIdeal.Gen Cert.MsgGru

/-- Entry (0, p, q, e) of the stored block, from the ten input blocks: x0 the receivers' feature rows, x1 the
    senders', x2 the edge block, x3 the adjacency block, x4 / x5 the transposed first / third column block of
    the linear weight, x6 the transposed middle block beside the transposed hidden-gate weight, x7 the linear
    bias beside the hidden-gate bias, x8 the transposed input-gate weight, x9 the input-gate bias. -/
theorem payload_apply (x0 : Vec Ideal S1x64x64 .f32) (x1 : Vec Ideal S1x128x64 .f32) (x2 : Vec Ideal S1x64x128x64 .f32)
    (x3 : Vec Ideal S1x64x128 .f32) (x4 x5 : Vec Ideal S64x64 .f32) (x6 : Vec Ideal S64x256 .f32) (x7 : Vec Ideal S256 .f32)
    (x8 : Vec Ideal S64x192 .f32) (x9 : Vec Ideal S192 .f32)
    (Wl : Fin 64 → Fin 192 → EReal) (bl : Fin 64 → EReal) (wih whh : Fin 192 → Fin 64 → EReal) (bih bhh : Fin 192 → EReal)
    (h4 : ∀ f e : Fin 64, x4 (ix2 f e) = Wl e (c0 f))
    (h5 : ∀ f e : Fin 64, x5 (ix2 f e) = Wl e (c2 f))
    (h6a : ∀ f e : Fin 64, x6 (ix2 f (⟨e.val, by omega⟩ : Fin 256)) = Wl e (c1 f))
    (h6b : ∀ (f : Fin 64) (g : Fin 192), x6 (ix2 f (⟨64 + g.val, by omega⟩ : Fin 256)) = whh g f)
    (h7a : ∀ e : Fin 64, x7 (ix1 (⟨e.val, by omega⟩ : Fin 256)) = bl e)
    (h7b : ∀ g : Fin 192, x7 (ix1 (⟨64 + g.val, by omega⟩ : Fin 256)) = bhh g)
    (h8 : ∀ (f : Fin 64) (g : Fin 192), x8 (ix2 f g) = wih g f)
    (h9 : ∀ g : Fin 192, x9 (ix1 g) = bih g)
    (p : Fin 64) (q : Fin 128) (e : Fin 64) :
    k0_pay1 (F := Ideal) (k0_pay2 x2) (k0_pay4 x2 x6 x7) (k0_pay5 x2 x6 x7) (k0_pay6 x0 x1 x2 x5 x4 x6 x7) (k0_pay7 x3) x8 x9
        (ix4 (0 : Fin 1) p q e)
      = cell (fun f => x0 (ix3 (0 : Fin 1) p f)) (fun f => x1 (ix3 (0 : Fin 1) q f)) (fun f => x2 (ix4 (0 : Fin 1) p q f))
          (x3 (ix3 (0 : Fin 1) p q)) Wl bl wih whh bih bhh e := by
  -- the input-gate row is the gate projection of the masked message
  have hG : ∀ c : Fin 192, giV (k0_pay6 (F := Ideal) x0 x1 x2 x5 x4 x6 x7) (k0_pay7 (F := Ideal) x3) x8 x9 (ix2 (row p q) c)
      = gate (msg (fun f => x0 (ix3 (0 : Fin 1) p f)) (fun f => x1 (ix3 (0 : Fin 1) q f)) (fun f => x2 (ix4 (0 : Fin 1) p q f))
          (x3 (ix3 (0 : Fin 1) p q)) Wl bl) wih bih c := by
    intro c
    rw [giV_apply]
    unfold gate
    refine congrArg₂ (· + ·) (Finset.sum_congr rfl fun f _ => ?_) (h9 c)
    rw [pay6_apply, pay7_apply, h8]
    refine congrArg (· * wih c f) ?_
    unfold msg lin
    refine congrArg (· * x3 (ix3 (0 : Fin 1) p q)) ?_
    simp only [h4, h5, h6a, h7a]
    ac_rfl
  -- the hidden-gate row is the edge projection's columns 64 … 255
  have hH0 : k0_pay4 (F := Ideal) x2 x6 x7 (ix2 (row p q) (⟨e.val, by omega⟩ : Fin 128))
      = gate (fun f => x2 (ix4 (0 : Fin 1) p q f)) whh bhh (c0 e) := by
    rw [pay4_apply]
    exact congrArg₂ (· + ·) (Finset.sum_congr rfl fun f _ => congrArg (x2 (ix4 (0 : Fin 1) p q f) * ·) (h6b f (c0 e))) (h7b (c0 e))
  have hH1 : k0_pay4 (F := Ideal) x2 x6 x7 (ix2 (row p q) (⟨64 + e.val, by omega⟩ : Fin 128))
      = gate (fun f => x2 (ix4 (0 : Fin 1) p q f)) whh bhh (c1 e) := by
    rw [pay4_apply]
    exact congrArg₂ (· + ·) (Finset.sum_congr rfl fun f _ => congrArg (x2 (ix4 (0 : Fin 1) p q f) * ·) (h6b f (c1 e))) (h7b (c1 e))
  have hH2 : k0_pay5 (F := Ideal) x2 x6 x7 (ix2 (row p q) e)
      = gate (fun f => x2 (ix4 (0 : Fin 1) p q f)) whh bhh (c2 e) := by
    rw [pay5_apply]
    exact congrArg₂ (· + ·) (Finset.sum_congr rfl fun f _ => congrArg (x2 (ix4 (0 : Fin 1) p q f) * ·) (h6b f (c2 e))) (h7b (c2 e))
  rw [pay1_apply, nhV_apply, hG, hG, hG, hH0, hH1, hH2, pay2_apply]
  unfold cell
  simp only [sigm_eq_logistic]

end Cert.MsgGru.Body

end
-- ==== Proof.WeightsKI.lean ====
/-
  The weight buffers the region finds, entry by entry: the ten host operations before the region slice the
  linear layer's weight in its three column blocks, transpose them and the two gate weights, and concatenate
  the middle block's transpose with the hidden gates' transposed weight, and the linear bias with the hidden
  gates' bias. Read at an index, each is an entry of an argument array as launched.
-/
import proofs.«128466_j5884105196042_2_alg».proof.Proof.BodyKI
import proofs.«128466_j5884105196042_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.MsgGru.Weights

open Idealize.ShloMosaic Idealize.ShloMosaic.ValueIdx Idealize.ShloMosaic.TcCoe Idealize.SL.Sem
open Cert.KernelIdeal Cert.KernelIdeal.Gen Cert.KernelIdeal.Hand Cert.MsgGru

variable (m : (ℓ : Loc nD τ sig) → Buf (Elt Ideal) ℓ) (c : Dev nD)

/-! ## The five buffers as layout operations of the launched arrays -/

/-- The linear layer's weight, the linear bias, the two gate weights and the hidden gates' bias as launched. -/
abbrev W3 : S64x192.Idx → EReal := m ((c : Thread nD τ).loc main_arg3)
abbrev B4 : S64.Idx → EReal := m ((c : Thread nD τ).loc main_arg4)
abbrev W5 : S192x64.Idx → EReal := m ((c : Thread nD τ).loc main_arg5)
abbrev W6 : S192x64.Idx → EReal := m ((c : Thread nD τ).loc main_arg6)
abbrev B8 : S192.Idx → EReal := m ((c : Thread nD τ).loc main_arg8)

theorem V_v3_eq : (V (F := Ideal) m c main_v3 : S64x64.Idx → EReal) =
    transpose S64x64 [1, 0] (extractStridedSlice S64x64 ![0, 0] (W3 m c) slices_S64x192_S64x64_0_0) transposes_S64x64_S64x64_1_0 := by
  dsimp only [V, hostOps0]; after_results

theorem V_v4_eq : (V (F := Ideal) m c main_v4 : S64x64.Idx → EReal) =
    transpose S64x64 [1, 0] (extractStridedSlice S64x64 ![0, 128] (W3 m c) slices_S64x192_S64x64_0_128) transposes_S64x64_S64x64_1_0 := by
  dsimp only [V, hostOps0]; after_results

theorem V_v7_eq : (V (F := Ideal) m c main_v7 : S64x192.Idx → EReal) =
    transpose S64x192 [1, 0] (W5 m c) transposes_S192x64_S64x192_1_0 := by
  dsimp only [V, hostOps0]; after_results

theorem V_v8_eq : (V (F := Ideal) m c main_v8 : S64x256.Idx → EReal) =
    concatenate S64x256 1
      [⟨S64x64, (transpose S64x64 [1, 0] (extractStridedSlice S64x64 ![0, 64] (W3 m c) slices_S64x192_S64x64_0_64) transposes_S64x64_S64x64_1_0 : S64x64.Idx → EReal)⟩,
       ⟨S64x192, (transpose S64x192 [1, 0] (W6 m c) transposes_S192x64_S64x192_1_0 : S64x192.Idx → EReal)⟩]
      concatenates_S64x64_S64x192_S64x256_d1 := by
  dsimp only [V, hostOps0]; after_results

theorem V_v9_eq : (V (F := Ideal) m c main_v9 : S256.Idx → EReal) =
    concatenate S256 0 [⟨S64, (B4 m c : S64.Idx → EReal)⟩, ⟨S192, (B8 m c : S192.Idx → EReal)⟩] concatenates_S64_S192_S256_d0 := by
  dsimp only [V, hostOps0]; after_results

/-! ## Read at an index -/

/-- The transposed first column block: entry (f, e) is W[e, f]. -/
theorem V_v3_apply (f e : Fin 64) :
    V (F := Ideal) m c main_v3 (ix2 f e) = m ((c : Thread nD τ).loc main_arg3) (ix2 e (c0 f)) := by
  refine (congrFun (V_v3_eq m c) (ix2 f e)).trans ?_
  refine (transpose_ix2_apply _ _ f e).trans ?_
  exact extractStridedSlice_apply _ _ _ _ _ (fun a => match a with
    | ⟨0, _⟩ => by show e.val = 0 + e.val; omega
    | ⟨1, _⟩ => by show f.val = 0 + f.val; omega)

/-- The transposed third column block: entry (f, e) is W[e, 128 + f]. -/
theorem V_v4_apply (f e : Fin 64) :
    V (F := Ideal) m c main_v4 (ix2 f e) = m ((c : Thread nD τ).loc main_arg3) (ix2 e (c2 f)) := by
  refine (congrFun (V_v4_eq m c) (ix2 f e)).trans ?_
  refine (transpose_ix2_apply _ _ f e).trans ?_
  exact extractStridedSlice_apply _ _ _ _ _ (fun a => match a with
    | ⟨0, _⟩ => by show e.val = 0 + e.val; omega
    | ⟨1, _⟩ => by show 128 + f.val = 128 + f.val; omega)

/-- The fused edge weight, its first 64 columns: entry (f, e) is W[e, 64 + f]. -/
theorem V_v8_lo (f e : Fin 64) :
    V (F := Ideal) m c main_v8 (ix2 f (⟨e.val, by omega⟩ : Fin 256)) = m ((c : Thread nD τ).loc main_arg3) (ix2 e (c1 f)) := by
  refine (congrFun (V_v8_eq m c) _).trans ?_
  refine (concatenate_pair_apply_left (t := S64x256) (s₁ := S64x64) (s₂ := S64x192) 1 _ _
    concatenates_S64x64_S64x192_S64x256_d1 (ix2 f (⟨e.val, by omega⟩ : Fin 256)) rfl (ix2 f e) (fun b => match b with
    | ⟨0, _⟩ => rfl
    | ⟨1, _⟩ => rfl)).trans ?_
  refine (transpose_ix2_apply _ _ f e).trans ?_
  exact extractStridedSlice_apply _ _ _ _ _ (fun a => match a with
    | ⟨0, _⟩ => by show e.val = 0 + e.val; omega
    | ⟨1, _⟩ => by show 64 + f.val = 64 + f.val; omega)

/-- The fused edge weight, its last 192 columns: entry (f, 64 + g) is w_hh[g, f]. -/
theorem V_v8_hi (f : Fin 64) (g : Fin 192) :
    V (F := Ideal) m c main_v8 (ix2 f (⟨64 + g.val, by omega⟩ : Fin 256)) = m ((c : Thread nD τ).loc main_arg6) (ix2 g f) := by
  refine (congrFun (V_v8_eq m c) _).trans ?_
  refine (concatenate_pair_apply_right (t := S64x256) (s₁ := S64x64) (s₂ := S64x192) 1 _ _
    concatenates_S64x64_S64x192_S64x256_d1 (ix2 f (⟨64 + g.val, by omega⟩ : Fin 256)) rfl rfl (ix2 f g) (fun b hb => by
      match b, hb with
      | ⟨0, _⟩, _ => rfl
      | ⟨1, _⟩, hb => exact absurd (Fin.ext rfl) hb) (by show g.val + 64 = 64 + g.val; omega)).trans ?_
  exact transpose_ix2_apply _ _ f g

/-- The fused bias, its first 64 entries: the linear bias. -/
theorem V_v9_lo (e : Fin 64) :
    V (F := Ideal) m c main_v9 (ix1 (⟨e.val, by omega⟩ : Fin 256)) = m ((c : Thread nD τ).loc main_arg4) (ix1 e) := by
  refine (congrFun (V_v9_eq m c) _).trans ?_
  exact concatenate_pair_apply_left (t := S256) (s₁ := S64) (s₂ := S192) 0 _ _
    concatenates_S64_S192_S256_d0 (ix1 (⟨e.val, by omega⟩ : Fin 256)) rfl (ix1 e) (fun b => match b with
    | ⟨0, _⟩ => rfl)

/-- The fused bias, its last 192 entries: the hidden gates' bias. -/
theorem V_v9_hi (g : Fin 192) :
    V (F := Ideal) m c main_v9 (ix1 (⟨64 + g.val, by omega⟩ : Fin 256)) = m ((c : Thread nD τ).loc main_arg8) (ix1 g) := by
  refine (congrFun (V_v9_eq m c) _).trans ?_
  exact concatenate_pair_apply_right (t := S256) (s₁ := S64) (s₂ := S192) 0 _ _
    concatenates_S64_S192_S256_d0 (ix1 (⟨64 + g.val, by omega⟩ : Fin 256)) rfl rfl (ix1 g) (fun b hb => by
      match b, hb with
      | ⟨0, _⟩, hb => exact absurd (Fin.ext rfl) hb) (by show g.val + 64 = 64 + g.val; omega)

/-- The transposed input gates' weight: entry (f, g) is w_ih[g, f]. -/
theorem V_v7_apply (f : Fin 64) (g : Fin 192) :
    V (F := Ideal) m c main_v7 (ix2 f g) = m ((c : Thread nD τ).loc main_arg5) (ix2 g f) := by
  refine (congrFun (V_v7_eq m c) (ix2 f g)).trans ?_
  exact transpose_ix2_apply _ _ f g

end Cert.MsgGru.Weights

end
-- ==== Proof.RefSide.lean ====
/-
  The reference program's result, read entry by entry, is the specification's cell: its three einsum
  contractions are the three column blocks of the linear layer, its broadcasts place the sender's term along
  the receivers and the receiver's along the senders, its gate projections are `gate`, its sigmoid is the
  quotient spelling `sigm`, and the outlined SiLU multiplies the new hidden value by its sigmoid.
-/
import proofs.«128466_j5884105196042_2_alg».proof.Proof.Gen.ReferenceIdeal.Read
import proofs.«128466_j5884105196042_2_alg».proof.Proof.Spec

noncomputable section

namespace Cert.MsgGru.Ref

open Idealize.ShloMosaic Idealize.ShloMosaic.ValueIdx Cert.ReferenceIdeal Cert.MsgGru
open Cert.ReferenceIdeal.Read

variable (x0 : FVec Ideal S2x512x64 .f32) (x1 : FVec Ideal S2x512x512x64 .f32) (x2 : FVec Ideal S2x512x512 .f32)
    (x3 : FVec Ideal S64x192 .f32) (x4 : FVec Ideal S64 .f32) (x5 x6 : FVec Ideal S192x64 .f32) (x7 x8 : FVec Ideal S192 .f32)
    (b : Fin 2) (i j : Fin 512) (e : Fin 64) (g : Fin 192)

/-! ## The three contractions of the linear layer -/

/-- The sender's block: row (b, j) of h against columns 0..63 of row e of the weight. -/
theorem sender_at :
    val_main_v3 (F := Ideal) x0 x3 (ix3 b j e) = ∑ f : Fin 64, x0 (ix3 b j f) * x3 (ix2 e (c0 f)) := by
  rw [val_main_v3_apply]
  refine Finset.sum_congr rfl fun f _ => ?_
  rw [val_main_v0_apply]
  have e1 : lidx_main_v3 (ix3 b j e) f = ix3 b j f :=
    funext fun a => by match a with | ⟨0, _⟩ => rfl | ⟨1, _⟩ => rfl | ⟨2, _⟩ => rfl
  have e2 : idx_main_v0 (ridx_main_v3 (ix3 b j e) f) = ix2 e (c0 f) :=
    funext fun a => by match a with | ⟨0, _⟩ => rfl | ⟨1, _⟩ => rfl
  rw [e1, e2]

/-- The receiver's block: row (b, i) of h against columns 128..191 of row e of the weight. -/
theorem receiver_at :
    val_main_v5 (F := Ideal) x0 x3 (ix3 b i e) = ∑ f : Fin 64, x0 (ix3 b i f) * x3 (ix2 e (c2 f)) := by
  rw [val_main_v5_apply]
  refine Finset.sum_congr rfl fun f _ => ?_
  rw [val_main_v2_apply]
  have e1 : lidx_main_v5 (ix3 b i e) f = ix3 b i f :=
    funext fun a => by match a with | ⟨0, _⟩ => rfl | ⟨1, _⟩ => rfl | ⟨2, _⟩ => rfl
  have e2 : idx_main_v2 (ridx_main_v5 (ix3 b i e) f) = ix2 e (c2 f) :=
    funext fun a => by match a with | ⟨0, _⟩ => rfl | ⟨1, _⟩ => rfl
  rw [e1, e2]

/-- The edge's block: row (b, i, j) of the edge array against columns 64..127 of row e of the weight. -/
theorem edge_at :
    val_main_v7 (F := Ideal) x1 x3 (ix4 b i j e) = ∑ f : Fin 64, x1 (ix4 b i j f) * x3 (ix2 e (c1 f)) := by
  rw [val_main_v7_apply]
  refine Finset.sum_congr rfl fun f _ => ?_
  rw [val_main_v1_apply]
  have e1 : lidx_main_v7 (ix4 b i j e) f = ix4 b i j f :=
    funext fun a => by match a with | ⟨0, _⟩ => rfl | ⟨1, _⟩ => rfl | ⟨2, _⟩ => rfl | ⟨3, _⟩ => rfl
  have e2 : idx_main_v1 (ridx_main_v7 (ix4 b i j e) f) = ix2 e (c1 f) :=
    funext fun a => by match a with | ⟨0, _⟩ => rfl | ⟨1, _⟩ => rfl
  rw [e1, e2]

/-! ## The broadcasts -/

/-- The sender's term is constant along the receivers. -/
theorem sender_bcast_at :
    val_main_v8 (F := Ideal) x0 x3 (ix4 b i j e) = val_main_v3 (F := Ideal) x0 x3 (ix3 b j e) := by
  rw [val_main_v8_apply, val_main_v4_apply]
  exact congrArg _ (funext fun a => by match a with | ⟨0, _⟩ => rfl | ⟨1, _⟩ => rfl | ⟨2, _⟩ => rfl)

/-- The receiver's term is constant along the senders. -/
theorem receiver_bcast_at :
    val_main_v10 (F := Ideal) x0 x3 (ix4 b i j e) = val_main_v5 (F := Ideal) x0 x3 (ix3 b i e) := by
  rw [val_main_v10_apply, val_main_v6_apply]
  exact congrArg _ (funext fun a => by match a with | ⟨0, _⟩ => rfl | ⟨1, _⟩ => rfl | ⟨2, _⟩ => rfl)

/-- The linear layer's bias depends on the feature only. -/
theorem lin_bias_at : val_main_v13 (F := Ideal) x4 (ix4 b i j e) = x4 (ix1 e) := by
  rw [val_main_v13_apply, val_main_v12_apply]
  exact congrArg _ (funext fun a => by match a with | ⟨0, _⟩ => rfl)

/-- The adjacency entry is constant along the features. -/
theorem adj_at : val_main_v16 (F := Ideal) x2 (ix4 b i j e) = x2 (ix3 b i j) := by
  rw [val_main_v16_apply, val_main_v15_apply]
  exact congrArg _ (funext fun a => by match a with | ⟨0, _⟩ => rfl | ⟨1, _⟩ => rfl | ⟨2, _⟩ => rfl)

/-- The input gates' bias depends on the gate row only. -/
theorem bih_at : val_main_v20 (F := Ideal) x7 (ix4 b i j g) = x7 (ix1 g) := by
  rw [val_main_v20_apply, val_main_v19_apply]
  exact congrArg _ (funext fun a => by match a with | ⟨0, _⟩ => rfl)

/-- The hidden gates' bias depends on the gate row only. -/
theorem bhh_at : val_main_v24 (F := Ideal) x8 (ix4 b i j g) = x8 (ix1 g) := by
  rw [val_main_v24_apply, val_main_v23_apply]
  exact congrArg _ (funext fun a => by match a with | ⟨0, _⟩ => rfl)

/-! ## The message and the two gate projections -/

/-- The message row of the cell (b, i, j), as the specification spells it. -/
abbrev mrow : Fin 64 → EReal :=
  msg (fun f => x0 (ix3 b i f)) (fun f => x0 (ix3 b j f)) (fun f => x1 (ix4 b i j f)) (x2 (ix3 b i j))
    (fun o c => x3 (ix2 o c)) (fun o => x4 (ix1 o))

/-- The masked linear layer is the specification's message. -/
theorem msg_at :
    val_main_v17 (F := Ideal) x0 x1 x2 x3 x4 (ix4 b i j e) = mrow x0 x1 x2 x3 x4 b i j e := by
  rw [val_main_v17_apply, val_main_v14_apply, val_main_v11_apply, val_main_v9_apply, sender_bcast_at, receiver_bcast_at,
    lin_bias_at, adj_at, sender_at, receiver_at, edge_at]
  rfl

/-- The input-side gate projection. -/
theorem gi_at :
    val_main_v21 (F := Ideal) x0 x1 x2 x3 x4 x5 x7 (ix4 b i j g)
      = gate (mrow x0 x1 x2 x3 x4 b i j) (fun g f => x5 (ix2 g f)) (fun g => x7 (ix1 g)) g := by
  rw [val_main_v21_apply, val_main_v18_apply, bih_at]
  have hs : ∀ f : Fin 64, (val_main_v17 (F := Ideal) x0 x1 x2 x3 x4) (lidx_main_v18 (ix4 b i j g) f) * x5 (ridx_main_v18 (ix4 b i j g) f)
      = mrow x0 x1 x2 x3 x4 b i j f * x5 (ix2 g f) := fun f => by
    have e1 : lidx_main_v18 (ix4 b i j g) f = ix4 b i j f :=
      funext fun a => by match a with | ⟨0, _⟩ => rfl | ⟨1, _⟩ => rfl | ⟨2, _⟩ => rfl | ⟨3, _⟩ => rfl
    have e2 : ridx_main_v18 (ix4 b i j g) f = ix2 g f :=
      funext fun a => by match a with | ⟨0, _⟩ => rfl | ⟨1, _⟩ => rfl
    rw [e1, e2, msg_at]
  rw [Finset.sum_congr rfl fun f _ => hs f]
  rfl

/-- The hidden-side gate projection. -/
theorem gh_at :
    val_main_v25 (F := Ideal) x1 x6 x8 (ix4 b i j g)
      = gate (fun f => x1 (ix4 b i j f)) (fun g f => x6 (ix2 g f)) (fun g => x8 (ix1 g)) g := by
  rw [val_main_v25_apply, val_main_v22_apply, bhh_at]
  have hs : ∀ f : Fin 64, x1 (lidx_main_v22 (ix4 b i j g) f) * x6 (ridx_main_v22 (ix4 b i j g) f)
      = x1 (ix4 b i j f) * x6 (ix2 g f) := fun f => by
    have e1 : lidx_main_v22 (ix4 b i j g) f = ix4 b i j f :=
      funext fun a => by match a with | ⟨0, _⟩ => rfl | ⟨1, _⟩ => rfl | ⟨2, _⟩ => rfl | ⟨3, _⟩ => rfl
    have e2 : ridx_main_v22 (ix4 b i j g) f = ix2 g f :=
      funext fun a => by match a with | ⟨0, _⟩ => rfl | ⟨1, _⟩ => rfl
    rw [e1, e2]
  rw [Finset.sum_congr rfl fun f _ => hs f]
  rfl

/-! ## The six slices -/

theorem gi0_at : val_main_v26 (F := Ideal) x0 x1 x2 x3 x4 x5 x7 (ix4 b i j e)
    = val_main_v21 (F := Ideal) x0 x1 x2 x3 x4 x5 x7 (ix4 b i j (c0 e)) := by
  rw [val_main_v26_apply]
  exact congrArg _ (funext fun a => by match a with | ⟨0, _⟩ => rfl | ⟨1, _⟩ => rfl | ⟨2, _⟩ => rfl | ⟨3, _⟩ => rfl)
theorem gi1_at : val_main_v27 (F := Ideal) x0 x1 x2 x3 x4 x5 x7 (ix4 b i j e)
    = val_main_v21 (F := Ideal) x0 x1 x2 x3 x4 x5 x7 (ix4 b i j (c1 e)) := by
  rw [val_main_v27_apply]
  exact congrArg _ (funext fun a => by match a with | ⟨0, _⟩ => rfl | ⟨1, _⟩ => rfl | ⟨2, _⟩ => rfl | ⟨3, _⟩ => rfl)
theorem gi2_at : val_main_v28 (F := Ideal) x0 x1 x2 x3 x4 x5 x7 (ix4 b i j e)
    = val_main_v21 (F := Ideal) x0 x1 x2 x3 x4 x5 x7 (ix4 b i j (c2 e)) := by
  rw [val_main_v28_apply]
  exact congrArg _ (funext fun a => by match a with | ⟨0, _⟩ => rfl | ⟨1, _⟩ => rfl | ⟨2, _⟩ => rfl | ⟨3, _⟩ => rfl)
theorem gh0_at : val_main_v29 (F := Ideal) x1 x6 x8 (ix4 b i j e)
    = val_main_v25 (F := Ideal) x1 x6 x8 (ix4 b i j (c0 e)) := by
  rw [val_main_v29_apply]
  exact congrArg _ (funext fun a => by match a with | ⟨0, _⟩ => rfl | ⟨1, _⟩ => rfl | ⟨2, _⟩ => rfl | ⟨3, _⟩ => rfl)
theorem gh1_at : val_main_v30 (F := Ideal) x1 x6 x8 (ix4 b i j e)
    = val_main_v25 (F := Ideal) x1 x6 x8 (ix4 b i j (c1 e)) := by
  rw [val_main_v30_apply]
  exact congrArg _ (funext fun a => by match a with | ⟨0, _⟩ => rfl | ⟨1, _⟩ => rfl | ⟨2, _⟩ => rfl | ⟨3, _⟩ => rfl)
theorem gh2_at : val_main_v31 (F := Ideal) x1 x6 x8 (ix4 b i j e)
    = val_main_v25 (F := Ideal) x1 x6 x8 (ix4 b i j (c2 e)) := by
  rw [val_main_v31_apply]
  exact congrArg _ (funext fun a => by match a with | ⟨0, _⟩ => rfl | ⟨1, _⟩ => rfl | ⟨2, _⟩ => rfl | ⟨3, _⟩ => rfl)

/-! ## The gates and the cell -/

/-- The input-side and hidden-side projections of the cell (b, i, j). -/
abbrev giRow : Fin 192 → EReal := gate (mrow x0 x1 x2 x3 x4 b i j) (fun g f => x5 (ix2 g f)) (fun g => x7 (ix1 g))
abbrev ghRow : Fin 192 → EReal := gate (fun f => x1 (ix4 b i j f)) (fun g f => x6 (ix2 g f)) (fun g => x8 (ix1 g))

/-- The reset gate. -/
theorem r_at : val_main_v38 (F := Ideal) x0 x1 x2 x3 x4 x5 x6 x7 x8 (ix4 b i j e)
    = sigm (giRow x0 x1 x2 x3 x4 x5 x7 b i j (c0 e) + ghRow x1 x6 x8 b i j (c0 e)) := by
  rw [val_main_v38_apply, val_main_v37_apply, val_main_cst_0_apply, val_main_v36_apply, val_main_v35_apply, val_main_cst_apply,
    val_main_v34_apply, val_main_v33_apply, val_main_v32_apply, gi0_at, gh0_at, gi_at, gh_at]
  rfl

/-- The update gate. -/
theorem z_at : val_main_v45 (F := Ideal) x0 x1 x2 x3 x4 x5 x6 x7 x8 (ix4 b i j e)
    = sigm (giRow x0 x1 x2 x3 x4 x5 x7 b i j (c1 e) + ghRow x1 x6 x8 b i j (c1 e)) := by
  rw [val_main_v45_apply, val_main_v44_apply, val_main_cst_2_apply, val_main_v43_apply, val_main_v42_apply, val_main_cst_1_apply,
    val_main_v41_apply, val_main_v40_apply, val_main_v39_apply, gi1_at, gh1_at, gi_at, gh_at]
  rfl

/-- The candidate. -/
theorem n_at : val_main_v48 (F := Ideal) x0 x1 x2 x3 x4 x5 x6 x7 x8 (ix4 b i j e)
    = Ideal.tanh (giRow x0 x1 x2 x3 x4 x5 x7 b i j (c2 e)
        + sigm (giRow x0 x1 x2 x3 x4 x5 x7 b i j (c0 e) + ghRow x1 x6 x8 b i j (c0 e)) * ghRow x1 x6 x8 b i j (c2 e)) := by
  rw [val_main_v48_apply, val_main_v47_apply, val_main_v46_apply, r_at, gi2_at, gh2_at, gi_at, gh_at]
  rfl

/-- The new hidden value. -/
theorem nh_at : val_main_v53 (F := Ideal) x0 x1 x2 x3 x4 x5 x6 x7 x8 (ix4 b i j e)
    = (oneW - sigm (giRow x0 x1 x2 x3 x4 x5 x7 b i j (c1 e) + ghRow x1 x6 x8 b i j (c1 e)))
        * Ideal.tanh (giRow x0 x1 x2 x3 x4 x5 x7 b i j (c2 e)
          + sigm (giRow x0 x1 x2 x3 x4 x5 x7 b i j (c0 e) + ghRow x1 x6 x8 b i j (c0 e)) * ghRow x1 x6 x8 b i j (c2 e))
      + sigm (giRow x0 x1 x2 x3 x4 x5 x7 b i j (c1 e) + ghRow x1 x6 x8 b i j (c1 e)) * x1 (ix4 b i j e) := by
  rw [val_main_v53_apply, val_main_v51_apply, val_main_v52_apply, val_main_v50_apply, val_main_v49_apply, val_main_cst_3_apply,
    z_at, n_at]
  rfl

/-- The outlined SiLU: the new hidden value times its sigmoid. -/
theorem silu_at : val_main_v54 (F := Ideal) x0 x1 x2 x3 x4 x5 x6 x7 x8 (ix4 b i j e)
    = val_main_v53 (F := Ideal) x0 x1 x2 x3 x4 x5 x6 x7 x8 (ix4 b i j e)
        * sigm (val_main_v53 (F := Ideal) x0 x1 x2 x3 x4 x5 x6 x7 x8 (ix4 b i j e)) := by
  rw [val_main_v54_apply, val_main_call0_v5_apply, val_main_call0_v4_apply, val_main_call0_cst_0_apply, val_main_call0_v3_apply,
    val_main_call0_v2_apply, val_main_call0_cst_apply, val_main_call0_v1_apply, val_main_call0_v0_apply]
  rfl

/-- The reference's last stage, as a function of the nine argument arrays, is the specification. -/
theorem ref_is_G (x0 : FVec Ideal S2x512x64 .f32) (x1 : FVec Ideal S2x512x512x64 .f32) (x2 : FVec Ideal S2x512x512 .f32)
    (x3 : FVec Ideal S64x192 .f32) (x4 : FVec Ideal S64 .f32) (x5 x6 : FVec Ideal S192x64 .f32) (x7 x8 : FVec Ideal S192 .f32) :
    Cert.ReferenceIdeal.Read.val_main_v54 (F := Ideal) x0 x1 x2 x3 x4 x5 x6 x7 x8 = G x0 x1 x2 x3 x4 x5 x6 x7 x8 := by
  funext y
  obtain ⟨b, i, j, e, rfl⟩ : ∃ (b : Fin 2) (i j : Fin 512) (e : Fin 64), y = ix4 b i j e :=
    ⟨y 0, y 1, y 2, y 3, eq_ix4 y⟩
  rw [G_apply, silu_at, nh_at]
  rfl

end Cert.MsgGru.Ref

end
-- ==== Proof.lean ====
/-
  The certificate of a message-passing layer with a gated recurrent update on the edges of a dense graph.

  For every batch b, receiver i, sender j the kernel and the reference compute, from the feature rows h[b,i,:] and
  h[b,j,:], the edge row edge[b,i,j,:] and the adjacency entry adj[b,i,j]: a linear layer on the concatenation
  [h_j | edge | h_i] with bias, masked by the adjacency entry (the message); the input-gate projection of the message
  and the hidden-gate projection of the edge row; the reset gate r and update gate z (sigmoids of the summed
  projections), the candidate n = tanh(i_n + r * h_n), the new hidden value (1 - z) * n + z * edge, and its SiLU.

  The kernel tiles the [512, 512] grid of (receiver, sender) pairs in blocks of 64 by 128 per batch, reads the
  receivers' and the senders' rows through two windows on the one feature array, fuses the edge-side matrix
  products into one product against [W_eᵀ | w_hhᵀ] with the bias row [b_lin | b_hh], and adds the three terms of the
  linear layer as (t_i + (t_e + b)) + t_j where the reference has ((t_j + t_e) + t_i) + b. On the extended reals
  addition is commutative and associative, so the two are equal with no finiteness; every other operation is the
  same on both sides (the reference's sigmoid 1 / (1 + e^(-x)) is the logistic function, at the infinities too).

  The three frames: each kernel program's run is the launch theorem for windows that may share an array, the feature
  array's full share dealt half to each of its two windows; the reference's is its run read back. The idealization
  rewrote nothing. The value claim: the kernel's result array is the specification's array G of the argument arrays
  (every grid point writes back block t of G, and the 64 blocks tile the array), and the reference's last stage is
  G of the same arrays.
-/
import proofs.«128466_j5884105196042_2_alg».proof.Defs
import proofs.«128466_j5884105196042_2_alg».proof.Proof.Gen.Kernel
import proofs.«128466_j5884105196042_2_alg».proof.Proof.Gen.KernelIdeal
import proofs.«128466_j5884105196042_2_alg».proof.Proof.Gen.ReferenceIdeal
import proofs.«128466_j5884105196042_2_alg».proof.Proof.Gen.Pre_finite_inputs
import proofs.«128466_j5884105196042_2_alg».proof.Proof.Gen.ReferenceIdeal.Run
import proofs.«128466_j5884105196042_2_alg».proof.Proof.Gen.ReferenceIdeal.Read
import proofs.«128466_j5884105196042_2_alg».proof.Proof.RunK
import proofs.«128466_j5884105196042_2_alg».proof.Proof.RunKI
import proofs.«128466_j5884105196042_2_alg».proof.Proof.ValueKI
import proofs.«128466_j5884105196042_2_alg».proof.Proof.Payload
import proofs.«128466_j5884105196042_2_alg».proof.Proof.WeightsKI
import proofs.«128466_j5884105196042_2_alg».proof.Proof.RefSide
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The weight buffers the region finds are the transposed and fused argument arrays, entry by entry. -/
theorem wfacts (m : (ℓ : Loc Cert.KernelIdeal.nD Cert.KernelIdeal.τ Cert.KernelIdeal.sig) → Buf (Elt Ideal) ℓ) (c : Dev Cert.KernelIdeal.nD) :
    Cert.MsgGru.Value.WFacts m c :=
  ⟨Cert.MsgGru.Weights.V_v3_apply m c, Cert.MsgGru.Weights.V_v4_apply m c, Cert.MsgGru.Weights.V_v8_lo m c,
    Cert.MsgGru.Weights.V_v8_hi m c, Cert.MsgGru.Weights.V_v9_lo m c, Cert.MsgGru.Weights.V_v9_hi m c,
    Cert.MsgGru.Weights.V_v7_apply m c⟩

/-- Both idealized programs end with the specification's array of the argument arrays. -/
theorem algebraic : Cert.algebraic_KernelIdeal_ReferenceIdeal := by
  intro m ρ m' ρ' _ hagree
  refine ⟨fun c => Cert.MsgGru.Value.GK m c,
    Cert.MsgGru.Value.run m ρ (fun x0 x1 x2 x3 x4 x5 x6 x7 x8 x9 Wl bl wih whh bih bhh h4 h5 h6a h6b h7a h7b h8 h9 p q e =>
      Cert.MsgGru.Body.payload_apply x0 x1 x2 x3 x4 x5 x6 x7 x8 x9 Wl bl wih whh bih bhh h4 h5 h6a h6b h7a h7b h8 h9 p q e) (wfacts m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.MsgGru.Ref.ref_is_G,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
